-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_cst_12 : FVec F S_ .f32 := constant S_ .f32 0x00000000#32
  let main_v34 : FVec F S64 .f32 := broadcastInDim S64 ![] bcast_S_S64 main_cst_12
  let main_v35 : IVec S64 1 := cmpf .oge main_arg7 main_v34
  let main_c_13 : IVec S_ 1 := constantI S_ 1 1#1
  let main_v36 : IVec S_ 1 := (fun x v => Host.reduce IntOp.andi x v reducesTo_S64_S_d0 h_S_) main_v35 main_c_13
  let main_v37 : IVec S_ 1 := andi main_v33 main_v36
  main_v37

def fn_part1 {F : FTy → Type} [FloatOps F] (main_arg5 : FVec F S64 .f32) (main_arg6 : FVec F S64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S100000x128 .f32) (main_arg1 : IVec S2x1600000 32) (main_arg2 : FVec F S128x64 .f32) (main_arg3 : FVec F S64 .f32) (main_arg4 : FVec F S64 .f32) (main_arg5 : FVec F S64 .f32) (main_arg6 : FVec F S64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S100000 : Shape := ⟨1, ![100000]⟩
abbrev S1600000x1 : Shape := ⟨2, ![1600000, 1]⟩
abbrev S1700000 : Shape := ⟨1, ![1700000]⟩
abbrev S1700000x1 : Shape := ⟨2, ![1700000, 1]⟩
abbrev S1700000x64 : Shape := ⟨2, ![1700000, 64]⟩
abbrev S50000x128 : Shape := ⟨2, ![50000, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S5000x128 : Shape := ⟨2, ![5000, 128]⟩

abbrev nBuf : Space → Nat
  | .hbm => 86
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000x64, .f32⟩
  | .hbm, ⟨13, _⟩ => ⟨S100000x64, .bf16⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S100000, .i32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S1700000, .i32⟩
  | .hbm, ⟨48, _⟩ => ⟨S1700000, .i32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .bf16⟩
  | .hbm, ⟨59, _⟩ => ⟨S1700000x64, .f32⟩
  | .hbm, ⟨60, _⟩ => ⟨S1700000x1, .f32⟩
  | .hbm, ⟨61, _⟩ => ⟨S1700000x64, .f32⟩
  | .hbm, ⟨62, _⟩ => ⟨S1700000x64, .f32⟩
  | .hbm, ⟨63, _⟩ => ⟨S_, .f32⟩
  | .hbm, ⟨64, _⟩ => ⟨S100000x64, .f32⟩
  | .hbm, ⟨65, _⟩ => ⟨S1700000x1, .i32⟩
  | .hbm, ⟨66, _⟩ => ⟨S100000x64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S64, .f32⟩
  | .hbm, ⟨73, _⟩ => ⟨S64, .f32⟩
  | .hbm, ⟨74, _⟩ => ⟨S64, .f32⟩
  | .hbm, ⟨75, _⟩ => ⟨S50000x128, .f32⟩
  | .hbm, ⟨76, _⟩ => ⟨S1x64, .f32⟩
  | .hbm, ⟨77, _⟩ => ⟨S2x64, .f32⟩
  | .hbm, ⟨78, _⟩ => ⟨S128, .f32⟩
  | .hbm, ⟨79, _⟩ => ⟨S1x128, .f32⟩
  | .hbm, ⟨80, _⟩ => ⟨S1x64, .f32⟩
  | .hbm, ⟨81, _⟩ => ⟨S2x64, .f32⟩
  | .hbm, ⟨82, _⟩ => ⟨S128, .f32⟩
  | .hbm, ⟨83, _⟩ => ⟨S1x128, .f32⟩
  | .hbm, ⟨84, _⟩ => ⟨S50000x128, .f32⟩
  | .hbm, ⟨85, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .bf16⟩
  | .local _ .vmem, ⟨6, _⟩ => ⟨S10000x64, .bf16⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  concatenates_S1600000_S100000_S1700000_d0 : Shape.Concatenates [S1600000, S100000] S1700000 0
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S_S64 : S_.BroadcastsInDim S64 (![] : Fin 0 → Fin S64.rank)
  shapeCasts_S100000x64_S50000x128 : S100000x64.ShapeCasts S50000x128
  shapeCasts_S64_S1x64 : S64.ShapeCasts S1x64
  bcast_S1x64_S2x64_0_1 : S1x64.BroadcastsInDim S2x64 (![0, 1] : Fin 2 → Fin S2x64.rank)
  shapeCasts_S2x64_S128 : S2x64.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000x128_S100000x64 : S50000x128.ShapeCasts S100000x64
  dot_S10000x128_S128x64_S10000x64_1_0_0_1_n_n_wf : DotDims.WF S10000x128 S128x64 S10000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .bf16 = 32 ∨ (Rect.block (s := S100000x64) S10000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S10000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v54) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 87
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S1600000x1, .f32⟩
  | .hbm, ⟨52, _⟩ => ⟨S1600000x64, .f32⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_call0_cst : Ref sig .tc := ⟨.hbm, 84, rfl⟩
abbrev main_call0_v0 : Ref sig .tc := ⟨.hbm, 85, rfl⟩
abbrev main_v64 : Ref sig .tc := ⟨.hbm, 86, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run with its RESULT named. @main is five segments: a stretch of host operations, the
  matmul region, a long stretch of host operations (degrees, normalisation, the gathers, the scatter-add, the folded
  affine vectors, the lane-dense re-layout), the epilogue region, and one reshape. The buffer contents at each
  boundary are the fold `W0 … W5` through those segments; every weakly fair execution terminates with the result
  array at the last boundary's contents `W5 … main_v64` and the argument arrays as launched. The launch is the
  several-regions one; only its last step differs from the frame's, reading the result buffer too.
-/
import proofs.«107749_j70531952935093_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array holding the last
    boundary's contents and every argument array as launched. -/
theorem run_result : θ_run defs (onTc (τ := τ) (main (F := F))) ⟨m, fun _ => 0, ρ⟩ (fun r => ∀ c : Dev nD,
      r.2.mem ((c.tc : Thread nD τ).loc main_v64) = W5 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v64 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.RunValue

end
-- ==== Proof.HostStages.lean ====
/-
  The idealized kernel's host operations as functions of the values they read.

  Between the two kernel regions @main computes, from the edge list and the matmul's result: the in-degree plus
  one of every node, its reciprocal square root, the per-edge normalisation, the reciprocal degree of the self
  loops, the messages (rows of the product gathered by source node, times the normalisation) over the edges FOLLOWED
  BY one self edge per node, their sum per destination node; and, from the per-channel vectors, the folded
  scale `γ · rsqrt(var + ε)` and shift `β + (b − μ) · scale`, each laid out twice side by side so that two
  consecutive nodes share one 128-wide row. Each stage is named here; the buffer contents at the epilogue region's
  entry are these functions of the contents at the matmul region's exit.
-/
import proofs.«107749_j70531952935093_2_alg».proof.Proof.Gen.KernelIdeal.Frame
import Idealize.ShloMosaic.PureOps.Ideal

set_option maxRecDepth 16384

noncomputable section

namespace Cert.KernelIdeal.HostValue

open Cert.KernelIdeal Cert.KernelIdeal.Facts₀ Cert.KernelIdeal.Facts
open Idealize.ShloMosaic Idealize.ShloMosaic.TcCoe Idealize.SL.Sem Idealize.ShloMosaic.StableHlo

/-- Row `0` of the edge list: the source node of every edge. -/
def srcOf (ei : IVec S2x1600000 32) : IVec S1600000 32 :=
  shapeCast S1600000 (extractStridedSlice S1x1600000 ![0, 0] ei slices_S2x1600000_S1x1600000_0_0) shapeCasts_S1x1600000_S1600000
/-- Row `1` of the edge list: the destination node of every edge. -/
def dstOf (ei : IVec S2x1600000 32) : IVec S1600000 32 :=
  shapeCast S1600000 (extractStridedSlice S1x1600000 ![1, 0] ei slices_S2x1600000_S1x1600000_1_0) shapeCasts_S1x1600000_S1600000

/-- The in-degree of every node plus one (the self loop). -/
def degOf (dst : IVec S1600000 32) : FVec Ideal S100000 .f32 :=
  addf (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32)))
    (broadcastInDim S100000 ![] bcast_S_S100000 (constant S_ .f32 0x3F800000#32))

/-- A node number counted from the end when negative (the indexing convention). -/
def wrapE (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v
/-- The same over the edges followed by the self edges. -/
def wrapT (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- The normalisation of every edge: the reciprocal square roots of its two end nodes' degrees, multiplied. -/
def normOf (src dst : IVec S1600000 32) : FVec Ideal S1600000 .f32 :=
  mulf (Host.gather gather_S100000_S1600000x1_S1600000_n_0_n_n_0_1_1 (Host.rsqrt (degOf dst))
      (broadcastInDim S1600000x1 ![0] bcast_S1600000_S1600000x1_0 (wrapE src)))
    (Host.gather gather_S100000_S1600000x1_S1600000_n_0_n_n_0_1_1 (Host.rsqrt (degOf dst))
      (broadcastInDim S1600000x1 ![0] bcast_S1600000_S1600000x1_0 (wrapE dst)))

/-- The normalisation of every self loop: one over the degree. -/
def invOf (dst : IVec S1600000 32) : FVec Ideal S100000 .f32 :=
  Host.divf (broadcastInDim S100000 ![] bcast_S_S100000 (constant S_ .f32 0x3F800000#32)) (degOf dst)

/-- The node numbers `0, 1, …` of the self edges. -/
def selfIdx : IVec S100000 32 := iotaInDim S100000 32 0

/-- The aggregation: over the edges followed by the self edges, the source node's row of `hb` times the edge's
    normalisation, summed into the destination node's row. -/
def aggOf (hb : FVec Ideal S100000x64 .bf16) (src dst : IVec S1600000 32) (nrm : FVec Ideal S1600000 .f32)
    (inv : FVec Ideal S100000 .f32) : FVec Ideal S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0
      (concatenate S1700000 0 [⟨S1600000, dst⟩, ⟨S100000, selfIdx⟩] concatenates_S1600000_S100000_S1700000_d0))
    (mulf
      (extf .f32 (Host.gather gather_S100000x64_S1700000x1_S1700000x64_1_0_n_n_0_1_164 hb
        (broadcastInDim S1700000x1 ![0] bcast_S1700000_S1700000x1_0
          (wrapT (concatenate S1700000 0 [⟨S1600000, src⟩, ⟨S100000, selfIdx⟩] concatenates_S1600000_S100000_S1700000_d0))))
        bitsLt_bf16_f32)
      (broadcastInDim S1700000x64 ![0, 1] bcast_S1700000x1_S1700000x64_0_1
        (broadcastInDim S1700000x1 ![0] bcast_S1700000_S1700000x1_0
          (concatenate S1700000 0 [⟨S1600000, nrm⟩, ⟨S100000, inv⟩] concatenates_S1600000_S100000_S1700000_d0))))

/-- The folded scale `γ · rsqrt(var + ε)`. -/
def scaleOf (g var : FVec Ideal S64 .f32) : FVec Ideal S64 .f32 :=
  mulf g (Host.rsqrt (addf var (broadcastInDim S64 ![] bcast_S_S64 (constant S_ .f32 0x3727C5AC#32))))
/-- The folded shift `β + (b − μ) · scale`. -/
def shiftOf (b g be mu var : FVec Ideal S64 .f32) : FVec Ideal S64 .f32 :=
  addf be (mulf (subf b mu) (scaleOf g var))
/-- A per-channel vector laid out twice side by side, as one 128-wide row. -/
def tileOf (v : FVec Ideal S64 .f32) : FVec Ideal S1x128 .f32 :=
  shapeCast S1x128 (shapeCast S128 (broadcastInDim S2x64 ![0, 1] bcast_S1x64_S2x64_0_1 (shapeCast S1x64 v shapeCasts_S64_S1x64))
    shapeCasts_S2x64_S128) shapeCasts_S128_S1x128
/-- The aggregation with two consecutive nodes per 128-wide row. -/
def pairRows (a : FVec Ideal S100000x64 .f32) : FVec Ideal S50000x128 .f32 :=
  shapeCast S50000x128 a shapeCasts_S100000x64_S50000x128

end Cert.KernelIdeal.HostValue

end
-- ==== Proof.KernelHost.lean ====
/-
  The buffer contents at the epilogue region's entry, read through the long stretch of host operations: each of
  the epilogue's three operands is a named stage (the module of the stages) of the contents the stretch starts at.
-/
import proofs.«107749_j70531952935093_2_alg».proof.Proof.HostStages
import Idealize.ShloMosaic.Lib.StableHlo.Run

set_option maxRecDepth 16384

noncomputable section

namespace Cert.KernelIdeal.HostValue

open Cert.KernelIdeal Cert.KernelIdeal.Facts₀ Cert.KernelIdeal.Facts
open Idealize.ShloMosaic Idealize.ShloMosaic.TcCoe Idealize.SL.Sem Idealize.ShloMosaic.StableHlo

/-- The edges' entries followed by the self edges' entries, with the two pieces as plain arguments (the
    concatenation's side condition is stated over the list of pieces, which keeps a rewrite from entering them). -/
def cat2 {α : Type} (x₁ : S1600000.Idx → α) (x₂ : S100000.Idx → α) : S1700000.Idx → α :=
  concatenate S1700000 0 [⟨S1600000, x₁⟩, ⟨S100000, x₂⟩] concatenates_S1600000_S100000_S1700000_d0
theorem cat2_eq {α : Type} (x₁ : S1600000.Idx → α) (x₂ : S100000.Idx → α) (h) :
    concatenate S1700000 0 [⟨S1600000, x₁⟩, ⟨S100000, x₂⟩] h = cat2 x₁ x₂ := rfl

/-- Reads a buffer through a literal line of host operations in one pass: each operation's result at its own buffer is
    its function of the operands' contents, any other buffer keeps its contents, and a two-piece concatenation is
    folded so that the pass enters its pieces. -/
macro "read_through" : tactic =>
  `(tactic| simp (disch := decide) only [after_cons, after_nil, cat2_eq,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

variable (W : Valuation τ sig (Elt Ideal))

/-- The epilogue's first operand at its region's entry: the pair-rows view of the aggregate. -/
theorem after_v54 :
    StableHlo.after (Gen.hostOps1 (F := Ideal)) W (Proc.devRef .tc main_v54)
      = pairRows (aggOf (W (Proc.devRef .tc main_v4_1)) (W (Proc.devRef .tc main_v1)) (W (Proc.devRef .tc main_v3))
          (normOf (W (Proc.devRef .tc main_v1)) (W (Proc.devRef .tc main_v3))) (invOf (W (Proc.devRef .tc main_v3)))) := by
  read_through
  unfold cat2 pairRows aggOf normOf invOf degOf wrapE wrapT selfIdx
  rfl

/-- The epilogue's second operand: the tiled scale. -/
theorem after_v58 :
    StableHlo.after (Gen.hostOps1 (F := Ideal)) W (Proc.devRef .tc main_v58)
      = tileOf (scaleOf (W (Proc.devRef .tc main_arg4)) (W (Proc.devRef .tc main_arg7))) := by
  read_through
  unfold tileOf scaleOf
  rfl

/-- The epilogue's third operand: the tiled shift. -/
theorem after_v62 :
    StableHlo.after (Gen.hostOps1 (F := Ideal)) W (Proc.devRef .tc main_v62)
      = tileOf (shiftOf (W (Proc.devRef .tc main_arg3)) (W (Proc.devRef .tc main_arg4)) (W (Proc.devRef .tc main_arg5))
          (W (Proc.devRef .tc main_arg6)) (W (Proc.devRef .tc main_arg7))) := by
  read_through
  unfold tileOf shiftOf scaleOf
  rfl

/-- The result buffer after the last reshape. -/
theorem after_v64 :
    StableHlo.after (Gen.hostOps2 (F := Ideal)) W (Proc.devRef .tc main_v64)
      = shapeCast S100000x64 (W (Proc.devRef .tc main_v63)) shapeCasts_S50000x128_S100000x64 := by
  read_through
  rfl

end Cert.KernelIdeal.HostValue

end
-- ==== Proof.MatmulBlocks.lean ====
/-
  The tiled matrix product region read as one function of whole arrays. The region walks the (100000, 128) left
  operand in ten blocks of 10000 rows against the whole (128, 64) right operand and writes each block of the product
  twice, once per output format; on extended reals a format change is the identity and the product accumulates into
  zero, so both copies hold the plain sums. Here, for the narrow-format copy: the contraction's operand coordinates
  (`matmul_lhs_row` … `matmul_rhs_col`), the stored value at one entry of a block (`matmul_payload_apply`,
  `matmul_point`), the blocks' positions over the ten points (`matmul_block_indices`), what each point writes back
  as a block of the whole-array function `hmat` (`matmul_bf16_flushed`), the ten blocks covering the output
  (`matmul_cover`), and so the output array after the region (`matmul_bf16_final`).
-/
import proofs.«107749_j70531952935093_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe
open Idealize.ShloMosaic.ValueIdx

variable (V : (c : Dev nD) → (b : Ref sig .tc) → Buf (Elt Ideal) ((c : Thread nD τ).loc b))

/-- The product as one function of the whole arrays: entry (r, n) is the sum over the 128 shared coordinates of
    row `r` of `x` against column `n` of `w`. -/
def hmat (x : S100000x128.Idx → EReal) (w : S128x64.Idx → EReal) : S100000x64.Idx → EReal :=
  fun i => ∑ k : Fin 128, x (ValueIdx.ix2 (⟨(i 0).val, (i 0).isLt⟩ : Fin 100000) k)
    * w (ValueIdx.ix2 k (⟨(i 1).val, (i 1).isLt⟩ : Fin 64))

/-- The contraction's operand coordinates at output entry `i` and shared index `q`: the left operand is read at
    `i`'s row and the shared coordinate, the right operand at the shared coordinate and `i`'s column. -/
theorem matmul_lhs_row (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl
theorem matmul_lhs_shared (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem matmul_rhs_shared (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem matmul_rhs_col (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- The body's stored value at row `p`, column `q` of a block. The format changes are the identity on extended
    reals and the accumulator is the zero splat, so what is left is the plain sum over the shared coordinate. -/
theorem matmul_payload_apply (x0 : Vec Ideal S10000x128 .f32) (x1 : Vec Ideal S128x64 .f32) (p : Fin 10000) (q : Fin 64) :
    k0_pay2 (F := Ideal) x0 x1 (ix2 p q) = ∑ k : Fin 128, x0 (ix2 p k) * x1 (ix2 k q) := by
  unfold k0_pay2 k0_pay1
  dsimp only
  rw [truncf_apply]
  simp only [matmul]
  rw [Ideal.matmul_constant_zero_apply,
    ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q)
      ((contrEquiv1 dot_S10000x128_S128x64_S10000x64_1_0_0_1_n_n 128 rfl rfl).symm k) = ix2 p k :=
    funext fun a => Fin.ext (by
      match a with
      | ⟨0, _⟩ => exact matmul_lhs_row _ _
      | ⟨1, _⟩ => exact (matmul_lhs_shared _ _).trans hk)
  have er : dot_S10000x128_S128x64_S10000x64_1_0_0_1_n_n.rhsIdx (ix2 p q)
      ((contrEquiv1 dot_S10000x128_S128x64_S10000x64_1_0_0_1_n_n 128 rfl rfl).symm k) = ix2 k q :=
    funext fun a => Fin.ext (by
      match a with
      | ⟨0, _⟩ => exact (matmul_rhs_shared _ _).trans hk
      | ⟨1, _⟩ => exact matmul_rhs_col _ _)
  rw [el, er, truncf_apply, truncf_apply]

/-- One stored entry against the whole-array function: if row `j 0` of the left block is row `i 0` of `X`, the
    right block is all of `W`, and `j` and `i` are in the same column, the body stores `hmat X W i`. -/
theorem matmul_point (X : S100000x128.Idx → EReal) (W : S128x64.Idx → EReal)
    (x0 : Vec Ideal S10000x128 .f32) (x1 : Vec Ideal S128x64 .f32) (j : S10000x64.Idx) (i : S100000x64.Idx)
    (h0 : ∀ k : Fin 128, x0 (ix2 (⟨(j 0).val, (j 0).isLt⟩ : Fin 10000) k)
      = X (ix2 (⟨(i 0).val, (i 0).isLt⟩ : Fin 100000) k))
    (h1 : ∀ (k : Fin 128) (n : Fin 64), x1 (ix2 k n) = W (ix2 k n))
    (hcol : (i 1).val = (j 1).val) :
    k0_pay2 (F := Ideal) x0 x1 j = hmat X W i := by
  obtain ⟨p, q, rfl⟩ : ∃ (p : Fin 10000) (q : Fin 64), j = ix2 p q := ⟨j 0, j 1, eq_ix2 j⟩
  rw [matmul_payload_apply]
  unfold hmat
  refine Finset.sum_congr rfl fun k _ => ?_
  have hq : (⟨(i 1).val, (i 1).isLt⟩ : Fin 64) = q := Fin.ext hcol
  rw [hq, h1, ← h0 k]

/-- The accesses' offsets are all zero, however the zeros are written. -/
theorem matmul_zero_offsets : (![0, 0] : Fin 2 → Nat) = fun _ => 0 := funext fun a => by fin_cases a <;> rfl

/-- The index maps over the ten grid points: the left operand's rows and the product's rows move together, block
    `t` at point `t`, each on its only column block; the right operand stays at its only block. -/
theorem matmul_block_indices : ∀ t : Fin cfg0.N,
    win0_0.index t (0 : Fin 2) = win0_3.index t (0 : Fin 2)
    ∧ win0_0.index t (1 : Fin 2) = 0
    ∧ win0_1.index t (0 : Fin 2) = 0 ∧ win0_1.index t (1 : Fin 2) = 0
    ∧ win0_3.index t (0 : Fin 2) = t.val ∧ win0_3.index t (1 : Fin 2) = 0 :=
  (by decide +kernel : ∀ t : Fin grid0.N, _)

/-- What grid point `t` writes back to the narrow-format copy of the product is block `t` of `hmat` of the
    two operand arrays as the region finds them. -/
theorem matmul_bf16_flushed (c : Dev nD) (t : Fin cfg0.N) :
    (dat0 (F := Ideal) V c).flushed 3 t
      = ((cfg0.win 3).blk t).view.read (Elt Ideal) (hmat (V c main_arg0) (V c main_arg2)) := by
  show (cfg0.win 3).cut (grid0.coords t) ((dat0 V c).after 3 t) = _
  rw [after0_3]
  unfold out0_3
  rw [View.canon_unit_zero matmul_zero_offsets]
  simp only [View.ld_unit_zero (S := S10000x128) matmul_zero_offsets, View.ld_unit_zero (S := S128x64) matmul_zero_offsets]
  obtain ⟨e0, e1, e2, e3, e4, e5⟩ := matmul_block_indices t
  funext j
  show k0_pay2 (F := Ideal) (iblk0 V c 0 t) (iblk0 V c 1 t) j
    = hmat (V c main_arg0) (V c main_arg2) (((cfg0.win 3).blk t).view.emb j)
  refine matmul_point (V c main_arg0) (V c main_arg2) (iblk0 V c 0 t) (iblk0 V c 1 t)
    j (((cfg0.win 3).blk t).view.emb j) ?_ ?_ ?_
  · -- a row of the left block sits in the left array where the same row of the product block sits in the product
    intro k
    show V c main_arg0 (((cfg0.win 0).blk t).view.emb (ix2 (⟨(j 0).val, (j 0).isLt⟩ : Fin 10000) k))
      = V c main_arg0 (ix2 (⟨((((cfg0.win 3).blk t).view.emb j) 0).val, ((((cfg0.win 3).blk t).view.emb j) 0).isLt⟩ : Fin 100000) k)
    refine congrArg _ (funext fun a => Fin.ext ?_)
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 128 + 1 * k.val = k.val; omega
  · -- the right operand's block is the whole right array
    intro k n
    show V c main_arg2 (((cfg0.win 1).blk t).view.emb (ix2 k n)) = V c main_arg2 (ix2 k n)
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * n.val = n.val; omega
  · -- the column inside the block is the column in the array
    show win0_3.index t (1 : Fin 2) * 64 + 1 * (j 1).val = (j 1).val
    omega

/-- An entry of the product array lies in point `t`'s block exactly when each coordinate lies in the block's
    range on its axis. -/
theorem matmul_mem_block (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v4_1).slice (win0_3.rect t)).set ↔ _
  rw [View.set_slice_whole, Rect.mem_set_unit]
  exact Iff.rfl

/-- Every entry of the product array is written back by some point: row `r` lies in the block of point
    `r / 10000`, and the one column block holds every column. -/
theorem matmul_cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 :=
    ⟨⟨(i 0).val / 10000, lt_of_lt_of_eq (by omega) hN.symm⟩, rfl⟩
  obtain ⟨-, -, -, -, e4, e5⟩ := matmul_block_indices t
  refine ⟨t, flush0_3 t, ?_⟩
  rw [matmul_mem_block]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

/-- After the region's ten points the narrow-format copy of the product holds `hmat` of the two operand arrays
    as the region found them. -/
theorem matmul_bf16_final (c : Dev nD) :
    (dat0 (F := Ideal) V c).arrAt 3 cfg0.N = hmat (V c main_arg0) (V c main_arg2) :=
  (dat0 (F := Ideal) V c).arrAt_eq_of_cover 3 (hmat (V c main_arg0) (V c main_arg2))
    (fun t _ => matmul_bf16_flushed V c t) matmul_cover

end Cert.KernelIdeal.RegionValue

end
-- ==== Proof.EpilogueBlocks.lean ====
/-
  The pointwise epilogue region read as one function of whole arrays. The region walks the (50000, 128) input in ten
  blocks of 5000 rows; at each block it scales every entry by its column's entry of a one-row array, adds its column's
  entry of a second one-row array, and clamps the result below at zero. Here: that value at one entry of a block
  (`epilogue_payload_apply`, `epilogue_point`), the blocks' positions over the ten points (`epilogue_block_indices`),
  what each point writes back as a block of the whole-array function `epi` (`epilogue_flushed`), the ten blocks
  covering the output (`epilogue_cover`), and so the output array after the region (`epilogue_final`).
-/
import proofs.«107749_j70531952935093_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe
open Idealize.ShloMosaic.ValueIdx

variable (V : (c : Dev nD) → (b : Ref sig .tc) → Buf (Elt Ideal) ((c : Thread nD τ).loc b))

/-- The epilogue as one function of the whole arrays: each entry of `a` scaled by its column's entry of the
    one-row array `s`, shifted by its column's entry of the one-row array `t`, and clamped below at zero. -/
def epi (a : S50000x128.Idx → EReal) (s t : S1x128.Idx → EReal) : S50000x128.Idx → EReal :=
  fun i => max (a i * s (ValueIdx.ix2 (0 : Fin 1) (⟨(i 1).val, (i 1).isLt⟩ : Fin 128))
    + t (ValueIdx.ix2 (0 : Fin 1) (⟨(i 1).val, (i 1).isLt⟩ : Fin 128))) 0

/-- The body's stored value at row `p`, column `q` of a block: the shape casts are to the same shape, the two
    one-row operands are read at column `q` of their only row, and the zero word is the extended real `0`. -/
theorem epilogue_payload_apply (x0 : Vec Ideal S5000x128 .f32) (x1 x2 : Vec Ideal S1x128 .f32) (p : Fin 5000) (q : Fin 128) :
    k1_pay1 (F := Ideal) x0 x1 x2 (ix2 p q)
      = max (x0 (ix2 p q) * x1 (ix2 (0 : Fin 1) q) + x2 (ix2 (0 : Fin 1) q)) 0 := by
  unfold k1_pay1
  simp only [shapeCast_self]
  rw [maximumf_apply, addf_apply, mulf_apply, broadcast_apply, broadcastTo_1b_ab_apply, broadcastTo_1b_ab_apply]
  show max _ (Ideal.ofBits .f32 0x00000000#32) = _
  rw [Ideal.ofBits_zero_f32]

/-- One stored entry against the whole-array function: if the block's entry `j` is entry `i` of `A` in the same
    column, and the two one-row operands are the one-row arrays `S` and `T`, the body stores `epi A S T i`. -/
theorem epilogue_point (A : S50000x128.Idx → EReal) (S T : S1x128.Idx → EReal)
    (x0 : Vec Ideal S5000x128 .f32) (x1 x2 : Vec Ideal S1x128 .f32) (j : S5000x128.Idx) (i : S50000x128.Idx)
    (h0 : x0 j = A i)
    (h1 : ∀ q : Fin 128, x1 (ix2 (0 : Fin 1) q) = S (ix2 (0 : Fin 1) q))
    (h2 : ∀ q : Fin 128, x2 (ix2 (0 : Fin 1) q) = T (ix2 (0 : Fin 1) q))
    (hcol : (i 1).val = (j 1).val) :
    k1_pay1 (F := Ideal) x0 x1 x2 j = epi A S T i := by
  obtain ⟨p, q, rfl⟩ : ∃ (p : Fin 5000) (q : Fin 128), j = ix2 p q := ⟨j 0, j 1, eq_ix2 j⟩
  rw [epilogue_payload_apply, h0, h1, h2]
  unfold epi
  have hq : (⟨(i 1).val, (i 1).isLt⟩ : Fin 128) = q := Fin.ext hcol
  rw [hq]

/-- The accesses' offsets are all zero, however the zeros are written. -/
theorem zero_offsets : (![0, 0] : Fin 2 → Nat) = fun _ => 0 := funext fun a => by fin_cases a <;> rfl

/-- The four index maps over the ten grid points: the input rows and the output rows move together, block `t`
    at point `t`, on the only column block; the two one-row operands stay at their only block. -/
theorem epilogue_block_indices : ∀ t : Fin cfg1.N,
    win1_0.index t (0 : Fin 2) = win1_3.index t (0 : Fin 2)
    ∧ win1_0.index t (1 : Fin 2) = win1_3.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point `t` writes back to the output array is block `t` of `epi` of the three input arrays as
    the region finds them. -/
theorem epilogue_flushed (c : Dev nD) (t : Fin cfg1.N) :
    (dat1 (F := Ideal) V c).flushed 3 t
      = ((cfg1.win 3).blk t).view.read (Elt Ideal) (epi (V c main_v54) (V c main_v58) (V c main_v62)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S1x128) zero_offsets]
  obtain ⟨e0, e1, e2, e3, e4, e5, e6, e7⟩ := epilogue_block_indices t
  funext j
  show k1_pay1 (F := Ideal) (iblk1 V c 0 t) (iblk1 V c 1 t) (iblk1 V c 2 t) j
    = epi (V c main_v54) (V c main_v58) (V c main_v62) (((cfg1.win 3).blk t).view.emb j)
  refine epilogue_point (V c main_v54) (V c main_v58) (V c main_v62) (iblk1 V c 0 t) (iblk1 V c 1 t) (iblk1 V c 2 t)
    j (((cfg1.win 3).blk t).view.emb j) ?_ ?_ ?_ ?_
  · -- the input block's entry sits in the input array where the output block's entry sits in the output array
    show V c main_v54 (((cfg1.win 0).blk t).view.emb j) = V c main_v54 (((cfg1.win 3).blk t).view.emb j)
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  · -- the scale row's block is the whole one-row array
    intro q
    show V c main_v58 (((cfg1.win 1).blk t).view.emb (ix2 (0 : Fin 1) q)) = V c main_v58 (ix2 (0 : Fin 1) q)
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · -- and so is the shift row's
    intro q
    show V c main_v62 (((cfg1.win 2).blk t).view.emb (ix2 (0 : Fin 1) q)) = V c main_v62 (ix2 (0 : Fin 1) q)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · -- the column inside the block is the column in the array
    show win1_3.index t (1 : Fin 2) * 128 + 1 * (j 1).val = (j 1).val
    omega

/-- An entry of the output array lies in point `t`'s block exactly when each coordinate lies in the block's
    range on its axis. -/
theorem epilogue_mem_block (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v63).slice (win1_3.rect t)).set ↔ _
  rw [View.set_slice_whole, Rect.mem_set_unit]
  exact Iff.rfl

/-- Every entry of the output array is written back by some point: row `r` lies in the block of point
    `r / 5000`, and the one column block holds every column. -/
theorem epilogue_cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 :=
    ⟨⟨(i 0).val / 5000, lt_of_lt_of_eq (by omega) hN.symm⟩, rfl⟩
  obtain ⟨-, -, -, -, -, -, e6, e7⟩ := epilogue_block_indices t
  refine ⟨t, flush1_3 t, ?_⟩
  rw [epilogue_mem_block]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- After the region's ten points the output array holds `epi` of the three input arrays as the region found them. -/
theorem epilogue_final (c : Dev nD) :
    (dat1 (F := Ideal) V c).arrAt 3 cfg1.N = epi (V c main_v54) (V c main_v58) (V c main_v62) :=
  (dat1 (F := Ideal) V c).arrAt_eq_of_cover 3 (epi (V c main_v54) (V c main_v58) (V c main_v62))
    (fun t _ => epilogue_flushed V c t) epilogue_cover

end Cert.KernelIdeal.RegionValue

end
-- ==== Proof.KernelResult.lean ====
/-
  The idealized kernel's result as ONE function of the argument arrays.

  Walking the boundary contents back from the return: the result is the reshape of what the epilogue region leaves,
  which is the epilogue function of its three operands at the region's entry; those are the pair-rows view of the
  aggregate and the tiled scale and shift, stages of the contents at the matmul region's exit; there the matmul's
  low-precision output is `x · W` and every other buffer read is an argument or a row of the edge list.
-/
import proofs.«107749_j70531952935093_2_alg».proof.Proof.KernelHost
import proofs.«107749_j70531952935093_2_alg».proof.Proof.MatmulBlocks
import proofs.«107749_j70531952935093_2_alg».proof.Proof.EpilogueBlocks

set_option maxRecDepth 16384

noncomputable section

namespace Cert.KernelIdeal.HostValue

open Cert.KernelIdeal Cert.KernelIdeal.Facts₀ Cert.KernelIdeal.Facts Cert.KernelIdeal.RegionValue
open Idealize.ShloMosaic Idealize.ShloMosaic.TcCoe Idealize.SL.Sem Idealize.ShloMosaic.StableHlo

/-- The kernel's result from its eight arguments. -/
def kernelOut (x0 : FVec Ideal S100000x128 .f32) (x1 : IVec S2x1600000 32) (x2 : FVec Ideal S128x64 .f32)
    (x3 x4 x5 x6 x7 : FVec Ideal S64 .f32) : FVec Ideal S100000x64 .f32 :=
  shapeCast S100000x64
    (epi (pairRows (aggOf (hmat x0 x2) (srcOf x1) (dstOf x1) (normOf (srcOf x1) (dstOf x1)) (invOf (dstOf x1))))
      (tileOf (scaleOf x4 x7)) (tileOf (shiftOf x3 x4 x5 x6 x7)))
    shapeCasts_S50000x128_S100000x64

variable (m : (ℓ : Loc nD τ sig) → Buf (Elt Ideal) ℓ) (ρ : Dev nD → PrngReg) (c : Dev nD)

/-! ## The contents at the matmul region's entry and exit -/

/-- An argument array at the matmul region's entry is the launch memory's (the first stretch only slices the edge list). -/
theorem W1_arg (r : Ref sig .tc) (hr : r = main_arg0 ∨ r = main_arg2 ∨ r = main_arg3 ∨ r = main_arg4 ∨ r = main_arg5
      ∨ r = main_arg6 ∨ r = main_arg7) :
    Gen.W1 m ρ c (Proc.devRef .tc r) = m ((c : Thread nD τ).loc r) := by
  show StableHlo.after (Gen.hostOps0 (F := Ideal)) (Gen.W0 m ρ c) (Proc.devRef .tc r) = _
  rcases hr with rfl | rfl | rfl | rfl | rfl | rfl | rfl <;> (after_results_simp <;> rfl)

/-- The source nodes at the matmul region's entry. -/
theorem W1_src : Gen.W1 m ρ c (Proc.devRef .tc main_v1) = srcOf (m ((c : Thread nD τ).loc main_arg1)) := by
  show StableHlo.after (Gen.hostOps0 (F := Ideal)) (Gen.W0 m ρ c) (Proc.devRef .tc main_v1) = _
  after_results_simp <;> rfl

/-- The destination nodes at the matmul region's entry. -/
theorem W1_dst : Gen.W1 m ρ c (Proc.devRef .tc main_v3) = dstOf (m ((c : Thread nD τ).loc main_arg1)) := by
  show StableHlo.after (Gen.hostOps0 (F := Ideal)) (Gen.W0 m ρ c) (Proc.devRef .tc main_v3) = _
  after_results_simp <;> rfl

/-- The matmul's low-precision output at the region's exit is `x · W`. -/
theorem W2_h : Gen.W2 m ρ c (Proc.devRef .tc main_v4_1)
    = hmat (m ((c : Thread nD τ).loc main_arg0)) (m ((c : Thread nD τ).loc main_arg2)) := by
  have h := Gen.W2_arr m ρ c 3
  have e := matmul_bf16_final (Gen.V1 m ρ) c
  rw [show Gen.V1 m ρ c main_arg0 = m ((c : Thread nD τ).loc main_arg0) from W1_arg m ρ c main_arg0 (Or.inl rfl),
    show Gen.V1 m ρ c main_arg2 = m ((c : Thread nD τ).loc main_arg2) from W1_arg m ρ c main_arg2 (Or.inr (Or.inl rfl))] at e
  exact h.trans e

/-- The source nodes at the matmul region's exit (the region writes only its own outputs). -/
theorem W2_src : Gen.W2 m ρ c (Proc.devRef .tc main_v1) = srcOf (m ((c : Thread nD τ).loc main_arg1)) :=
  (Gen.W2_of_ne m ρ c main_v1 (by decide)).trans (W1_src m ρ c)

/-- The destination nodes at the matmul region's exit. -/
theorem W2_dst : Gen.W2 m ρ c (Proc.devRef .tc main_v3) = dstOf (m ((c : Thread nD τ).loc main_arg1)) :=
  (Gen.W2_of_ne m ρ c main_v3 (by decide)).trans (W1_dst m ρ c)

/-- A per-channel argument at the matmul region's exit is the launch memory's. -/
theorem W2_vec (r : Ref sig .tc) (hr : r = main_arg3 ∨ r = main_arg4 ∨ r = main_arg5 ∨ r = main_arg6 ∨ r = main_arg7) :
    Gen.W2 m ρ c (Proc.devRef .tc r) = m ((c : Thread nD τ).loc r) := by
  rcases hr with rfl | rfl | rfl | rfl | rfl
  · exact (Gen.W2_of_ne m ρ c main_arg3 (by decide)).trans (W1_arg m ρ c main_arg3 (by simp))
  · exact (Gen.W2_of_ne m ρ c main_arg4 (by decide)).trans (W1_arg m ρ c main_arg4 (by simp))
  · exact (Gen.W2_of_ne m ρ c main_arg5 (by decide)).trans (W1_arg m ρ c main_arg5 (by simp))
  · exact (Gen.W2_of_ne m ρ c main_arg6 (by decide)).trans (W1_arg m ρ c main_arg6 (by simp))
  · exact (Gen.W2_of_ne m ρ c main_arg7 (by decide)).trans (W1_arg m ρ c main_arg7 (by simp))

/-! ## The epilogue's operands at its region's entry, and the result -/

theorem V3_agg : Gen.V3 m ρ c main_v54
    = pairRows (aggOf (hmat (m ((c : Thread nD τ).loc main_arg0)) (m ((c : Thread nD τ).loc main_arg2)))
        (srcOf (m ((c : Thread nD τ).loc main_arg1))) (dstOf (m ((c : Thread nD τ).loc main_arg1)))
        (normOf (srcOf (m ((c : Thread nD τ).loc main_arg1))) (dstOf (m ((c : Thread nD τ).loc main_arg1))))
        (invOf (dstOf (m ((c : Thread nD τ).loc main_arg1))))) :=
  (after_v54 (Gen.W2 m ρ c)).trans (by rw [W2_h, W2_src, W2_dst])

theorem V3_scale : Gen.V3 m ρ c main_v58
    = tileOf (scaleOf (m ((c : Thread nD τ).loc main_arg4)) (m ((c : Thread nD τ).loc main_arg7))) :=
  (after_v58 (Gen.W2 m ρ c)).trans (by
    rw [W2_vec m ρ c main_arg4 (by simp), W2_vec m ρ c main_arg7 (by simp)])

theorem V3_shift : Gen.V3 m ρ c main_v62
    = tileOf (shiftOf (m ((c : Thread nD τ).loc main_arg3)) (m ((c : Thread nD τ).loc main_arg4))
        (m ((c : Thread nD τ).loc main_arg5)) (m ((c : Thread nD τ).loc main_arg6)) (m ((c : Thread nD τ).loc main_arg7))) :=
  (after_v62 (Gen.W2 m ρ c)).trans (by
    rw [W2_vec m ρ c main_arg3 (by simp), W2_vec m ρ c main_arg4 (by simp), W2_vec m ρ c main_arg5 (by simp),
      W2_vec m ρ c main_arg6 (by simp), W2_vec m ρ c main_arg7 (by simp)])

/-- What the epilogue region leaves in its output array. -/
theorem W4_out : Gen.W4 m ρ c (Proc.devRef .tc main_v63)
    = epi (Gen.V3 m ρ c main_v54) (Gen.V3 m ρ c main_v58) (Gen.V3 m ρ c main_v62) :=
  (Gen.W4_arr m ρ c 3).trans (epilogue_final (Gen.V3 m ρ) c)

/-- THE RESULT at the last boundary is `kernelOut` of the launch memory's argument arrays. -/
theorem kernel_result : Gen.W5 m ρ c (Proc.devRef .tc main_v64)
    = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (after_v64 (Gen.W4 m ρ c)).trans ?_
  rw [W4_out, V3_agg, V3_scale, V3_shift]
  rfl

end Cert.KernelIdeal.HostValue

end
-- ==== Proof.EpilogueRead.lean ====
/-
  The epilogue read back at a node and a channel. The epilogue region works on a lane-dense view in which two
  consecutive nodes share one 128-wide row and every per-channel vector is laid out twice side by side; the final
  reshape returns to one node per row. Node `n`, channel `c` sits at row `n / 2`, lane `(n % 2) * 64 + c` of that
  view (both are row-major position `64 n + c`), where the paired array holds the node's own entry and each doubled
  vector holds channel `c`. Here: the paired view and the doubled vector read at an index (`pairRows_apply`,
  `tileOf_apply`, and their forms with the node and channel named), and the whole chain (`epilogue_read`).
-/
import proofs.«107749_j70531952935093_2_alg».proof.Proof.HostStages
import proofs.«107749_j70531952935093_2_alg».proof.Proof.EpilogueBlocks
import Idealize.ShloMosaic.Lib.Pipeline.Value
import Idealize.ShloMosaic.Lib.ValueIdx
import Idealize.ShloMosaic.Lib.ValueLayout

set_option maxRecDepth 16384

noncomputable section

namespace Cert.KernelIdeal.HostValue

open Cert.KernelIdeal Cert.KernelIdeal.Facts₀ Cert.KernelIdeal.Facts Cert.KernelIdeal.RegionValue
open Idealize.ShloMosaic Idealize.ShloMosaic.ValueIdx

/-- Two consecutive nodes share a 128-wide row: row `p`, lane `q` of the paired view is node `2p + q / 64`,
    channel `q % 64` (both sit at row-major position `128 p + q`). -/
theorem pairRows_apply (A : FVec Ideal S100000x64 .f32) (p : Fin 50000) (q : Fin 128) :
    pairRows A (ix2 p q)
      = A (ix2 (⟨2 * p.val + q.val / 64, by have := p.isLt; have := q.isLt; omega⟩ : Fin 100000)
          (⟨q.val % 64, Nat.mod_lt _ (by decide)⟩ : Fin 64)) := by
  unfold pairRows
  exact shapeCast_apply A shapeCasts_S100000x64_S50000x128 (ix2 p q) _ (by
    rewrite [Shape.rowMajor_val_two, Shape.rowMajor_val_two]
    show (2 * p.val + q.val / 64) * 64 + q.val % 64 = p.val * 128 + q.val
    omega)

/-- One row of 64 copied into two rows reads, in either row, the one row at the same column. -/
theorem twoRows_apply (w : FVec Ideal S1x64 .f32) (r : Fin 2) (c : Fin 64) :
    broadcastInDim S2x64 ![0, 1] bcast_S1x64_S2x64_0_1 w (ix2 r c) = w (ix2 (0 : Fin 1) c) :=
  broadcastInDim_apply ![0, 1] bcast_S1x64_S2x64_0_1 w (ix2 r c) (ix2 (0 : Fin 1) c) fun a => by
    match a with
    | ⟨0, _⟩ => rfl
    | ⟨1, _⟩ => rfl

/-- A per-channel vector laid out twice side by side reads, at lane `q`, the vector at channel `q % 64`. -/
theorem tileOf_apply (v : FVec Ideal S64 .f32) (q : Fin 128) :
    tileOf v (ix2 (0 : Fin 1) q) = v (ix1 (⟨q.val % 64, Nat.mod_lt _ (by decide)⟩ : Fin 64)) := by
  unfold tileOf
  rw [shapeCast_a_1a_apply]
  rw [shapeCast_apply _ shapeCasts_S2x64_S128 (ix1 q)
    (ix2 (⟨q.val / 64, by have := q.isLt; omega⟩ : Fin 2) (⟨q.val % 64, Nat.mod_lt _ (by decide)⟩ : Fin 64)) (by
      rewrite [Shape.rowMajor_val_two, Shape.rowMajor_val_one]
      show q.val / 64 * 64 + q.val % 64 = q.val
      omega)]
  rw [twoRows_apply, shapeCast_a_1a_apply]

/-- The same with the node and channel named: any `(n, c)` with `n = 2p + q / 64` and `c = q % 64`. -/
theorem pairRows_at (A : FVec Ideal S100000x64 .f32) (p : Fin 50000) (q : Fin 128) (n : Fin 100000) (c : Fin 64)
    (hn : n.val = 2 * p.val + q.val / 64) (hc : c.val = q.val % 64) : pairRows A (ix2 p q) = A (ix2 n c) :=
  (pairRows_apply A p q).trans (congrArg₂ (fun a b => A (ix2 a b)) (Fin.ext hn.symm) (Fin.ext hc.symm))

/-- The same with the channel named: any `c` with `c = q % 64`. -/
theorem tileOf_at (v : FVec Ideal S64 .f32) (q : Fin 128) (c : Fin 64) (hc : c.val = q.val % 64) :
    tileOf v (ix2 (0 : Fin 1) q) = v (ix1 c) :=
  (tileOf_apply v q).trans (congrArg (fun a => v (ix1 a)) (Fin.ext hc.symm))

/-- The kernel's result at node n, channel c: the epilogue on the lane-dense view, read back through the final reshape. -/
theorem epilogue_read (A : FVec Ideal S100000x64 .f32) (s t : FVec Ideal S64 .f32) (n : Fin 100000) (c : Fin 64) :
    shapeCast S100000x64 (epi (pairRows A) (tileOf s) (tileOf t)) shapeCasts_S50000x128_S100000x64 (ix2 n c)
      = max (A (ix2 n c) * s (ix1 c) + t (ix1 c)) 0 := by
  have hn : n.val < 100000 := n.isLt
  have hc : c.val < 64 := c.isLt
  -- node n, channel c sits at row n / 2, lane (n % 2) * 64 + c of the paired view
  obtain ⟨P, hP⟩ : ∃ P : Fin 50000, P.val = n.val / 2 := ⟨⟨n.val / 2, by omega⟩, rfl⟩
  obtain ⟨Q, hQ⟩ : ∃ Q : Fin 128, Q.val = n.val % 2 * 64 + c.val := ⟨⟨n.val % 2 * 64 + c.val, by omega⟩, rfl⟩
  rw [shapeCast_apply _ shapeCasts_S50000x128_S100000x64 (ix2 n c) (ix2 P Q) (by
      rewrite [Shape.rowMajor_val_two, Shape.rowMajor_val_two]
      show P.val * 128 + Q.val = n.val * 64 + c.val
      omega)]
  unfold epi
  show max (pairRows A (ix2 P Q) * tileOf s (ix2 (0 : Fin 1) Q) + tileOf t (ix2 (0 : Fin 1) Q)) 0 = _
  rw [pairRows_at A P Q n c (by omega) (by omega), tileOf_at s Q c (by omega), tileOf_at t Q c (by omega)]

end Cert.KernelIdeal.HostValue

end
-- ==== Proof.LibRowScatter.lean ====
/-
  THE ACCUMULATING SCATTER OF ROWS, READ AT AN INDEX, on the extended reals.

  A segment sum of rows: an operand `x : [N, C]`, one row number per update `idx : [E, 1]` and updates
  `upd : [E, C]`, with the dimension numbers update_window_dims = [1], inserted_window_dims = [0],
  scatter_dims_to_operand_dims = [0], index_vector_dim = 1. Update row `e` is added into operand row
  `idx[e, 0]`, the row number read as a SIGNED integer and not clamped; a row number outside `[0, N)`
  drops the update row.

  Proved here, for all sizes `N E C`:
    * `rowScatter_resultIdx?`: update element `(e, c')` lands at operand element `(n, c)` exactly when
      `idx[e, 0] = n` (as integers) and `c' = c`;
    * `hostScatterAdd_rowScatter_apply`: the result at `(n, c)` is
      `x[n, c] + Σ_e (if idx[e, 0] = n then upd[e, c] else 0)`.
  Nothing here mentions a program.
-/
import Idealize.ShloMosaic.PureOps.Ideal
import Idealize.ShloMosaic.Lib.ValueIdx
import Idealize.ShloMosaic.Lib.Pipeline.Value

noncomputable section

open scoped BigOperators

namespace Cert.RowScatter

open Idealize.ShloMosaic Idealize.ShloMosaic.ValueIdx

/-- The row scatter's dimension numbers at any sizes (a record printed with these four lists is this one by `rfl`). -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

section
variable {N E C : Nat} (wf : ScatterDims.WF ⟨2, ![N, C]⟩ ⟨2, ![E, 1]⟩ ⟨2, ![E, C]⟩ [1] [0] [0] 1)

/-- On the row axis the window starts at the row number `idx[e, 0]`, read signed. -/
theorem rowScatter_start0 {w : Nat} (j : (⟨2, ![E, C]⟩ : Shape).Idx) (idx : IVec ⟨2, ![E, 1]⟩ w) :
    (rowScatter N E C wf).start j idx 0 = (idx (ix2 (j 0) (0 : Fin 1))).toInt := by
  unfold ScatterDims.start
  rw [dif_pos (show (0 : Fin 2) ∈ (rowScatter N E C wf).scatterDimsToOperandDims from List.mem_singleton.mpr rfl)]
  have hsi : (rowScatter N E C wf).siIdx j ⟨List.idxOf (0 : Fin 2) (rowScatter N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at `0`: the scatter indices name the row axis only. -/
theorem rowScatter_start1 {w : Nat} (j : (⟨2, ![E, C]⟩ : Shape).Idx) (idx : IVec ⟨2, ![E, 1]⟩ w) :
    (rowScatter N E C wf).start j idx 1 = 0 := by
  unfold ScatterDims.start
  rw [dif_neg (show ¬ (1 : Fin 2) ∈ (rowScatter N E C wf).scatterDimsToOperandDims from
    (by decide : ¬ (1 : Fin 2) ∈ ([0] : List (Fin 2))))]

/-- The row axis is inserted: the window coordinate on it is `0`. -/
theorem rowScatter_window0 (j : (⟨2, ![E, C]⟩ : Shape).Idx) : (rowScatter N E C wf).window j 0 = 0 := by
  unfold ScatterDims.window
  rw [dif_neg (show ¬ (0 : Fin 2) ∈ (rowScatter N E C wf).sKept from
    (by decide : ¬ (0 : Fin 2) ∈ ([1] : List (Fin 2))))]

/-- The column axis is the one window axis: the window coordinate on it is the update's column. -/
theorem rowScatter_window1 (j : (⟨2, ![E, C]⟩ : Shape).Idx) : (rowScatter N E C wf).window j 1 = (j 1).val := by
  unfold ScatterDims.window
  rw [dif_pos (show (1 : Fin 2) ∈ (rowScatter N E C wf).sKept from
    (by decide : (1 : Fin 2) ∈ ([1] : List (Fin 2))))]
  rfl

/-- WHERE AN UPDATE ELEMENT LANDS: update element `j = (e, c')` lands at operand element `i = (n, c)` exactly when the
    row number `idx[e, 0]`, read signed, is `n` and the columns agree. (A row number outside `[0, N)` equals no
    `n`: the update is dropped.) -/
theorem rowScatter_resultIdx? {w : Nat} (j : (⟨2, ![E, C]⟩ : Shape).Idx) (idx : IVec ⟨2, ![E, 1]⟩ w)
    (i : (⟨2, ![N, C]⟩ : Shape).Idx) :
    (rowScatter N E C wf).resultIdx? j idx = some i ↔
      (idx (ix2 (j 0) (0 : Fin 1))).toInt = ((i 0).val : Int) ∧ (j 1).val = (i 1).val := by
  have h0 : (rowScatter N E C wf).start j idx 0 + ((rowScatter N E C wf).window j 0 : Int)
      = (idx (ix2 (j 0) (0 : Fin 1))).toInt := by
    rw [rowScatter_start0, rowScatter_window0]; simp
  have h1 : (rowScatter N E C wf).start j idx 1 + ((rowScatter N E C wf).window j 1 : Int) = ((j 1).val : Int) := by
    rw [rowScatter_start1, rowScatter_window1]; simp
  have hi0 : (i 0).val < N := idx2_lt0 i
  have hi1 : (i 1).val < C := idx2_lt1 i
  have hj1 : (j 1).val < C := idx2_lt1 j
  unfold ScatterDims.resultIdx?
  split_ifs with h
  · rw [Option.some.injEq, funext_iff, Fin.forall_fin_two, Fin.ext_iff, Fin.ext_iff]
    have ha := (h 0).1
    simp only [h0, h1] at ha ⊢
    omega
  · constructor
    · intro hn; exact absurd hn (by simp)
    · rintro ⟨he, hc⟩
      refine absurd (Fin.forall_fin_two.2 ⟨?_, ?_⟩) h
      · rw [h0, he]
        exact ⟨by omega, by exact_mod_cast hi0⟩
      · rw [h1]
        exact ⟨by omega, by exact_mod_cast hj1⟩

/-- THE ROW SCATTER READ AT `(n, c)`: the operand there plus the sum, over the update rows whose row number is `n`,
    of their column `c`. -/
theorem hostScatterAdd_rowScatter_apply {w : Nat} (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  simp only [rowScatter_resultIdx?]
  show (∑ b : Fin C, if (idx (ix2 e (0 : Fin 1))).toInt = (n.val : Int) ∧ b.val = c.val then upd (ix2 e b) else 0) = _
  by_cases hidx : (idx (ix2 e (0 : Fin 1))).toInt = (n.val : Int)
  · simp only [hidx, true_and, if_true, Fin.val_inj]
    rw [Finset.sum_ite_eq' Finset.univ c (fun b => upd (ix2 e b)), if_pos (Finset.mem_univ c)]
  · simp only [hidx, false_and, if_false, Finset.sum_const_zero]

end

/-! ## Two blocks of columns scattered at once

Scattering, into a zero operand, the rows of `[a | b]` (the updates `a : [E, C₁]` and `b : [E, C₂]` side by side, `C`
columns in all) scatters each block by itself: a column below `C₁` of the result is that column of the scatter of `a`,
a column from `C₁` on is column `k − C₁` of the scatter of `b`. -/

section Concat
variable {N E C₁ C₂ C : Nat}
  (wf : ScatterDims.WF ⟨2, ![N, C]⟩ ⟨2, ![E, 1]⟩ ⟨2, ![E, C]⟩ [1] [0] [0] 1)

/-- A column of the first block. -/
theorem hostScatterAdd_rowScatter_concat_left
    (wf₁ : ScatterDims.WF ⟨2, ![N, C₁]⟩ ⟨2, ![E, 1]⟩ ⟨2, ![E, C₁]⟩ [1] [0] [0] 1)
    {w : Nat} (idx : IVec ⟨2, ![E, 1]⟩ w)
    (a : (⟨2, ![E, C₁]⟩ : Shape).Idx → EReal) (b : (⟨2, ![E, C₂]⟩ : Shape).Idx → EReal)
    (h : Shape.Concatenates [⟨2, ![E, C₁]⟩, ⟨2, ![E, C₂]⟩] ⟨2, ![E, C]⟩ 1)
    (n : Fin N) (k : Fin C) (hk : k.val < C₁) :
    Ideal.hostScatterAdd (rowScatter N E C wf) (fun _ => 0) idx
        (concatenate ⟨2, ![E, C]⟩ 1 [⟨⟨2, ![E, C₁]⟩, a⟩, ⟨⟨2, ![E, C₂]⟩, b⟩] h) (ix2 n k)
      = Ideal.hostScatterAdd (rowScatter N E C₁ wf₁) (fun _ => 0) idx a (ix2 n ⟨k.val, hk⟩) := by
  rw [hostScatterAdd_rowScatter_apply, hostScatterAdd_rowScatter_apply]
  congr 1
  refine Finset.sum_congr rfl fun e _ => ?_
  rw [concatenate_pair_apply_left 1 a b h (ix2 e k) rfl (ix2 e ⟨k.val, hk⟩)
    (fun b => match b with | ⟨0, _⟩ => rfl | ⟨1, _⟩ => rfl)]

/-- A column of the second block. -/
theorem hostScatterAdd_rowScatter_concat_right
    (wf₂ : ScatterDims.WF ⟨2, ![N, C₂]⟩ ⟨2, ![E, 1]⟩ ⟨2, ![E, C₂]⟩ [1] [0] [0] 1)
    {w : Nat} (idx : IVec ⟨2, ![E, 1]⟩ w)
    (a : (⟨2, ![E, C₁]⟩ : Shape).Idx → EReal) (b : (⟨2, ![E, C₂]⟩ : Shape).Idx → EReal)
    (h : Shape.Concatenates [⟨2, ![E, C₁]⟩, ⟨2, ![E, C₂]⟩] ⟨2, ![E, C]⟩ 1)
    (n : Fin N) (k : Fin C) (hk : C₁ ≤ k.val) (hk₂ : k.val - C₁ < C₂) :
    Ideal.hostScatterAdd (rowScatter N E C wf) (fun _ => 0) idx
        (concatenate ⟨2, ![E, C]⟩ 1 [⟨⟨2, ![E, C₁]⟩, a⟩, ⟨⟨2, ![E, C₂]⟩, b⟩] h) (ix2 n k)
      = Ideal.hostScatterAdd (rowScatter N E C₂ wf₂) (fun _ => 0) idx b (ix2 n ⟨k.val - C₁, hk₂⟩) := by
  rw [hostScatterAdd_rowScatter_apply, hostScatterAdd_rowScatter_apply]
  congr 1
  refine Finset.sum_congr rfl fun e _ => ?_
  rw [concatenate_pair_apply_right 1 a b h (ix2 e k) rfl rfl (ix2 e ⟨k.val - C₁, hk₂⟩)
    (fun b hb => match b, hb with | ⟨0, _⟩, _ => rfl | ⟨1, _⟩, hb => absurd rfl hb)
    (show k.val - C₁ + C₁ = k.val by omega)]

end Concat

end Cert.RowScatter
-- ==== Proof.LibRowGather.lean ====
/-
  THE GATHER OF ROWS, READ AT AN INDEX.

  Taking rows of a matrix by number: an operand `x : [N, C]`, one row number per result row `idx : [E, 1]`, with the
  dimension numbers offset_dims = [1], collapsed_slice_dims = [0], start_index_map = [0], index_vector_dim = 1 and
  slice sizes [1, C]. Result row `e` is operand row `idx[e, 0]`, the row number read as a SIGNED integer and
  clamped into `[0, N − 1]`: a negative number reads row 0, one past the end reads the last row.

  Proved here, for all sizes `N E C` and any element type: `gather_rows_apply`, the result at `(e, c)` is
  `x[clamp idx[e, 0], c]`. Nothing here mentions a program.
-/
import Idealize.ShloMosaic.PureOps
import Idealize.ShloMosaic.Lib.ValueIdx

noncomputable section

namespace Cert.RowGather

open Idealize.ShloMosaic Idealize.ShloMosaic.ValueIdx

/-- The row gather's dimension numbers at any sizes (a record printed with these lists is this one by `rfl`). -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

section
variable {α : Type} {N E C : Nat}
  (wf : GatherDims.WF ⟨2, ![N, C]⟩ ⟨2, ![E, 1]⟩ ⟨2, ![E, C]⟩ [1] [0] [] [0] [] 1 ![1, C])

/-- On the row axis the slice starts at the row number `idx[e, 0]`, read signed and clamped into `[0, N − 1]`. -/
theorem rowGather_start0 {w : Nat} (j : (⟨2, ![E, C]⟩ : Shape).Idx) (idx : IVec ⟨2, ![E, 1]⟩ w) :
    (rowGather N E C wf).start j idx 0 = min (idx (ix2 (j 0) (0 : Fin 1))).toInt.toNat (N - 1) := by
  unfold GatherDims.start
  rw [dif_pos (show (0 : Fin 2) ∈ (rowGather N E C wf).startIndexMap from List.mem_singleton.mpr rfl)]
  have hsi : (rowGather N E C wf).siIdx j ⟨List.idxOf (0 : Fin 2) (rowGather N E C wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the slice starts at `0`: the start indices name the row axis only. -/
theorem rowGather_start1 {w : Nat} (j : (⟨2, ![E, C]⟩ : Shape).Idx) (idx : IVec ⟨2, ![E, 1]⟩ w) :
    (rowGather N E C wf).start j idx 1 = 0 := by
  unfold GatherDims.start
  rw [dif_neg (show ¬ (1 : Fin 2) ∈ (rowGather N E C wf).startIndexMap from
    (by decide : ¬ (1 : Fin 2) ∈ ([0] : List (Fin 2))))]

/-- The row axis is collapsed: no offset on it. -/
theorem rowGather_off0 (j : (⟨2, ![E, C]⟩ : Shape).Idx) : (rowGather N E C wf).offCoord j 0 = 0 := by
  unfold GatherDims.offCoord
  rw [dif_neg (show ¬ (0 : Fin 2) ∈ (rowGather N E C wf).sKept from
    (by decide : ¬ (0 : Fin 2) ∈ ([1] : List (Fin 2))))]

/-- The column axis is the one offset axis: the offset on it is the result's column. -/
theorem rowGather_off1 (j : (⟨2, ![E, C]⟩ : Shape).Idx) : (rowGather N E C wf).offCoord j 1 = (j 1).val := by
  unfold GatherDims.offCoord
  rw [dif_pos (show (1 : Fin 2) ∈ (rowGather N E C wf).sKept from
    (by decide : (1 : Fin 2) ∈ ([1] : List (Fin 2))))]
  rfl

/-- THE ROW GATHER READ AT `(e, c)`: the operand at the clamped row number `idx[e, 0]` and column `c`. -/
theorem gather_rows_apply {w : Nat} (hN : 0 < N) (x : (⟨2, ![N, C]⟩ : Shape).Idx → α) (idx : IVec ⟨2, ![E, 1]⟩ w)
    (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  show (rowGather N E C wf).start (ix2 e c) idx a + (rowGather N E C wf).batchCoord (ix2 e c) a
      + (rowGather N E C wf).offCoord (ix2 e c) a = _
  rw [GatherDims.batchCoord_eq_zero _ _ _ List.not_mem_nil]
  match a with
  | ⟨0, _⟩ =>
    show (rowGather N E C wf).start (ix2 e c) idx 0 + 0 + (rowGather N E C wf).offCoord (ix2 e c) 0 = _
    rw [rowGather_start0, rowGather_off0]; rfl
  | ⟨1, _⟩ =>
    show (rowGather N E C wf).start (ix2 e c) idx 1 + 0 + (rowGather N E C wf).offCoord (ix2 e c) 1 = _
    rw [rowGather_start1, rowGather_off1]; simp; rfl

end

end Cert.RowGather
-- ==== Proof.RefAggregate.lean ====
/-
  The reference's aggregate at a node and a channel.

  The reference sums, into every destination node, the source node's row of `x · W` times the edge's
  normalisation, and then adds the node's own row times one over its degree. Read at node `n`, channel `c`:
  zero plus the sum over the edges whose destination is `n`, plus the self-loop term. A source node number is
  counted from the end when negative and clamped into the node range, as the gather clamps it.
-/
import proofs.«107749_j70531952935093_2_alg».proof.Proof.Gen.ReferenceIdeal.Read
import proofs.«107749_j70531952935093_2_alg».proof.Proof.LibRowScatter
import proofs.«107749_j70531952935093_2_alg».proof.Proof.LibRowGather
import Idealize.ShloMosaic.PureOps.Ideal.Laws

set_option maxRecDepth 16384

noncomputable section

open scoped BigOperators

namespace Cert.ReferenceIdeal.RefValue

open Cert.ReferenceIdeal Cert.ReferenceIdeal.Read Cert.ReferenceIdeal.Facts₀ Cert.ReferenceIdeal.Facts Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S128x64, .f32⟩ : BufTy).Contents (Elt Ideal))

/-- The destination column of the scatter indices at edge `e` is the edge's destination node. -/
theorem dstcol_apply (e : Fin 1600000) :
    val_main_v38 (F := Ideal) x1 (ix2 e (0 : Fin 1)) = val_main_v3 (F := Ideal) x1 (ix1 e) := by
  rw [val_main_v38_apply]
  exact congrArg _ (funext fun a => match a with | ⟨0, _⟩ => rfl)

/-- The source column of the gather indices at edge `e` is the edge's (wrapped) source node. -/
theorem srccol_apply (e : Fin 1600000) :
    val_main_v32 (F := Ideal) x1 (ix2 e (0 : Fin 1)) = val_main_v31 (F := Ideal) x1 (ix1 e) := by
  rw [val_main_v32_apply]
  exact congrArg _ (funext fun a => match a with | ⟨0, _⟩ => rfl)

/-- The normalisation broadcast along the channels reads the edge's normalisation. -/
theorem normcol_apply (e : Fin 1600000) (c : Fin 64) :
    val_main_v35 (F := Ideal) x1 (ix2 e c) = val_main_v25 (F := Ideal) x1 (ix1 e) := by
  rw [val_main_v35_apply, val_main_v34_apply]
  exact congrArg _ (funext fun a => match a with | ⟨0, _⟩ => rfl)

/-- The reciprocal degree broadcast along the channels reads the node's reciprocal degree. -/
theorem invcol_apply (n : Fin 100000) (c : Fin 64) :
    val_main_v43 (F := Ideal) x1 (ix2 n c) = val_main_v41 (F := Ideal) x1 (ix1 n) := by
  rw [val_main_v43_apply, val_main_v42_apply]
  exact congrArg _ (funext fun a => match a with | ⟨0, _⟩ => rfl)

/-- The reference's sum of update rows into their destination rows, read at node `n` and channel `c`. -/
theorem ref_scatter_apply (x : FVec Ideal S100000x64 .f32) (idx : IVec S1600000x1 32) (upd : FVec Ideal S1600000x64 .f32)
    (n : Fin 100000) (c : Fin 64) :
    Host.scatterAdd scatter_S100000x64_S1600000x1_S1600000x64_1_0_0_1 x idx upd (ix2 n c)
      = x (ix2 n c) + ∑ e : Fin 1600000, if (idx (ix2 e (0 : Fin 1))).toInt = (n.val : Int) then upd (ix2 e c) else 0 :=
  Cert.RowScatter.hostScatterAdd_rowScatter_apply (N := 100000) (E := 1600000) (C := 64)
    scatter_S100000x64_S1600000x1_S1600000x64_1_0_0_1_wf x idx upd n c

/-- The reference's rows taken by number, read at edge `e` and channel `c`. -/
theorem ref_gather_at (x : FVec Ideal S100000x64 .f32) (idx : IVec S1600000x1 32) (e : Fin 1600000) (c : Fin 64) :
    Host.gather gather_S100000x64_S1600000x1_S1600000x64_1_0_n_n_0_1_164 x idx (ix2 e c)
      = x (ix2 (⟨min (idx (ix2 e (0 : Fin 1))).toInt.toNat (100000 - 1), by omega⟩ : Fin 100000) c) :=
  Cert.RowGather.gather_rows_apply (N := 100000) (E := 1600000) (C := 64)
    gather_S100000x64_S1600000x1_S1600000x64_1_0_n_n_0_1_164_wf (by omega) x idx e c

/-- One message: the clamped source node's row of the product times the edge's normalisation. -/
theorem msg_apply (e : Fin 1600000) (c : Fin 64) :
    val_main_v36 (F := Ideal) x0 x1 x2 (ix2 e c)
      = val_main_v26 (F := Ideal) x0 x2
          (ix2 (⟨min (val_main_v31 (F := Ideal) x1 (ix1 e)).toInt.toNat (100000 - 1), by omega⟩ : Fin 100000) c)
        * val_main_v25 (F := Ideal) x1 (ix1 e) := by
  rw [val_main_v36_apply, normcol_apply]
  unfold val_main_v33
  rw [ref_gather_at]
  simp only [srccol_apply]
  rfl

/-- THE AGGREGATE AT `(n, c)`: zero, plus the messages of the edges into `n`, plus the self-loop term. -/
theorem ref_agg_apply (n : Fin 100000) (c : Fin 64) :
    val_main_v45 (F := Ideal) x0 x1 x2 (ix2 n c)
      = (0 + ∑ e : Fin 1600000, if (val_main_v3 (F := Ideal) x1 (ix1 e)).toInt = (n.val : Int)
            then val_main_v26 (F := Ideal) x0 x2
                (ix2 (⟨min (val_main_v31 (F := Ideal) x1 (ix1 e)).toInt.toNat (100000 - 1), by omega⟩ : Fin 100000) c)
              * val_main_v25 (F := Ideal) x1 (ix1 e)
            else 0)
        + val_main_v26 (F := Ideal) x0 x2 (ix2 n c) * val_main_v41 (F := Ideal) x1 (ix1 n) := by
  rw [val_main_v45_apply]
  show val_main_v39 (F := Ideal) x0 x1 x2 (ix2 n c) + val_main_v44 (F := Ideal) x0 x1 x2 (ix2 n c) = _
  refine congrArg₂ (· + ·) ?_ ?_
  · unfold val_main_v39
    rw [ref_scatter_apply]
    refine congrArg₂ (· + ·) ?_ ?_
    · rw [val_main_v37_apply, val_main_cst_7_apply]; exact Ideal.ofBits_zero_f32
    · refine Finset.sum_congr rfl fun e _ => ?_
      rw [dstcol_apply, msg_apply]
  · rw [val_main_v44_apply, invcol_apply]; rfl

end Cert.ReferenceIdeal.RefValue

end
-- ==== Proof.RefResult.lean ====
import proofs.«107749_j70531952935093_2_alg».proof.Proof.RefAggregate

set_option maxRecDepth 16384

noncomputable section

open scoped BigOperators

namespace Cert.ReferenceIdeal.RefValue

open Cert.ReferenceIdeal Cert.ReferenceIdeal.Read Cert.ReferenceIdeal.Facts₀ Cert.ReferenceIdeal.Facts Idealize.ShloMosaic Idealize.ShloMosaic.ValueIdx

/-! ## A per-channel vector repeated along the nodes reads its entry at the channel -/

section Columns
variable (x : (⟨S64, .f32⟩ : BufTy).Contents (Elt Ideal)) (n : Fin 100000) (c : Fin 64)

/-- The bias along the nodes. -/
theorem biascol_apply : val_main_v47 (F := Ideal) x (ix2 n c) = x (ix1 c) := by
  rw [val_main_v47_apply, val_main_v46_apply]
  exact congrArg _ (funext fun a => match a with | ⟨0, _⟩ => rfl)

/-- The running mean along the nodes. -/
theorem meancol_apply : val_main_v50 (F := Ideal) x (ix2 n c) = x (ix1 c) := by
  rw [val_main_v50_apply, val_main_v49_apply]
  exact congrArg _ (funext fun a => match a with | ⟨0, _⟩ => rfl)

/-- The reciprocal square root of the running variance plus ε, along the nodes. -/
theorem rstdcol_apply : val_main_v56 (F := Ideal) x (ix2 n c) = val_main_v54 (F := Ideal) x (ix1 c) := by
  rw [val_main_v56_apply, val_main_v55_apply]
  exact congrArg _ (funext fun a => match a with | ⟨0, _⟩ => rfl)

/-- The scale γ along the nodes. -/
theorem gammacol_apply : val_main_v59 (F := Ideal) x (ix2 n c) = x (ix1 c) := by
  rw [val_main_v59_apply, val_main_v58_apply]
  exact congrArg _ (funext fun a => match a with | ⟨0, _⟩ => rfl)

/-- The shift β along the nodes. -/
theorem betacol_apply : val_main_v62 (F := Ideal) x (ix2 n c) = x (ix1 c) := by
  rw [val_main_v62_apply, val_main_v61_apply]
  exact congrArg _ (funext fun a => match a with | ⟨0, _⟩ => rfl)

/-- The reciprocal square root of the running variance plus ε at a channel. -/
theorem rstd_apply : val_main_v54 (F := Ideal) x (ix1 c) = Ideal.rsqrt (x (ix1 c) + Ideal.ofBits .f32 0x3727C5AC#32) := by
  rw [val_main_v54_apply, val_main_v53_apply, val_main_v52_apply, val_main_cst_9_apply]
  rfl

end Columns

/-- The zero the rectifier compares with. -/
theorem reluzero_apply (i : S100000x64.Idx) : val_main_call0_v0 (F := Ideal) i = 0 := by
  rw [val_main_call0_v0_apply, val_main_call0_cst_apply]
  exact Ideal.ofBits_zero_f32

/-- THE RESULT AT `(n, c)`: the aggregate plus the bias, batch-normalised with the running statistics, scaled and
    shifted, rectified. -/
theorem ref_result_apply (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 x4 x5 x6 x7 : (⟨S64, .f32⟩ : BufTy).Contents (Elt Ideal))
    (n : Fin 100000) (c : Fin 64) :
    val_main_v64 (F := Ideal) x0 x1 x2 x3 x4 x5 x6 x7 (ix2 n c)
      = max ((((val_main_v45 (F := Ideal) x0 x1 x2 (ix2 n c) + x3 (ix1 c)) - x6 (ix1 c))
               * Ideal.rsqrt (x7 (ix1 c) + Ideal.ofBits .f32 0x3727C5AC#32)) * x4 (ix1 c) + x5 (ix1 c)) 0 := by
  rw [val_main_v64_apply, val_main_v63_apply, val_main_v60_apply, val_main_v57_apply, val_main_v51_apply, val_main_v48_apply,
    biascol_apply, meancol_apply, rstdcol_apply, rstd_apply, gammacol_apply, betacol_apply, reluzero_apply,
    Ideal.maximumf_def, Ideal.addf_def, Ideal.mulf_def, Ideal.mulf_def, Ideal.subf_def, Ideal.addf_def]

end Cert.ReferenceIdeal.RefValue

end
-- ==== Proof.KernelAggregate.lean ====
import proofs.«107749_j70531952935093_2_alg».proof.Proof.HostStages
import proofs.«107749_j70531952935093_2_alg».proof.Proof.LibRowScatter
import proofs.«107749_j70531952935093_2_alg».proof.Proof.LibRowGather
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.KernelIdeal.HostValue

open Cert.KernelIdeal Cert.KernelIdeal.Facts₀ Cert.KernelIdeal.Facts Idealize.ShloMosaic Idealize.ShloMosaic.ValueIdx

/-! ## Node numbers as 32-bit words -/

/-- A node number read signed and clamped into the node range. -/
def clampNode (v : BitVec 32) : Fin 100000 := ⟨min v.toInt.toNat (100000 - 1), by omega⟩

/-- A node number counted from the end when negative, on one word. -/
def wrapWord (x : BitVec 32) : BitVec 32 := Scalar.select (IntOp.cmpi .slt x 0#32) (IntOp.addi x 100000#32) x

/-- A number below 100000, as a 32-bit word, reads back signed as itself. -/
theorem toInt_ofNat_small (i : Nat) (hi : i < 100000) : (BitVec.ofNat 32 i).toInt = (i : Int) := by
  rw [BitVec.toInt_eq_toNat_cond, BitVec.toNat_ofNat]
  have h : i % 2 ^ 32 = i := Nat.mod_eq_of_lt (by omega)
  rw [h, if_pos (by omega)]

/-- Such a word is not negative, so counting from the end leaves it alone. -/
theorem wrapWord_small (i : Nat) (hi : i < 100000) : wrapWord (BitVec.ofNat 32 i) = BitVec.ofNat 32 i := by
  have hlt : (BitVec.ofNat 32 i).slt 0#32 = false := by
    rw [BitVec.slt_eq_decide, toInt_ofNat_small i hi, BitVec.toInt_zero]
    exact decide_eq_false (by omega)
  unfold wrapWord IntOp.cmpi
  show Scalar.select (BitVec.ofBool ((BitVec.ofNat 32 i).slt 0#32)) _ _ = _
  rw [hlt]
  rfl

/-- Such a word clamps to the number it spells. -/
theorem clampNode_small (i : Nat) (hi : i < 100000) : clampNode (BitVec.ofNat 32 i) = ⟨i, hi⟩ := by
  unfold clampNode
  refine Fin.ext ?_
  show min (BitVec.ofNat 32 i).toInt.toNat (100000 - 1) = i
  rw [toInt_ofNat_small i hi, Int.toNat_natCast]
  omega

/-- Counting from the end is pointwise, over the edges … -/
theorem wrapE_apply (v : IVec S1600000 32) (i : S1600000.Idx) : wrapE v i = wrapWord (v i) := rfl
/-- … and over the edges followed by the self edges. -/
theorem wrapT_apply (v : IVec S1700000 32) (i : S1700000.Idx) : wrapT v i = wrapWord (v i) := rfl
/-- Self edge i names node i. -/
theorem selfIdx_apply (i : Fin 100000) : selfIdx (ix1 i) = BitVec.ofNat 32 i.val := rfl

/-! ## The rows of the update: the edges, then the self edges -/

/-- Edge e among all the update rows. -/
abbrev rowE (e : Fin 1600000) : Fin 1700000 := ⟨e.val, by have := e.isLt; omega⟩
/-- Self edge i among all the update rows. -/
abbrev rowS (i : Fin 100000) : Fin 1700000 := ⟨1600000 + i.val, by have := i.isLt; omega⟩

/-- A sum over all the update rows is the sum over the edges plus the sum over the self edges. -/
theorem sum_rows (f : Fin 1700000 → EReal) :
    ∑ j : Fin 1700000, f j = ∑ e : Fin 1600000, f (rowE e) + ∑ i : Fin 100000, f (rowS i) :=
  Fin.sum_univ_add (a := 1600000) (b := 100000) f

section Layout
variable {α : Type}

/-- The two-piece array read at an edge row is the first piece there. -/
theorem concat_edge (a : S1600000.Idx → α) (b : S100000.Idx → α) (e : Fin 1600000) :
    concatenate S1700000 0 [⟨S1600000, a⟩, ⟨S100000, b⟩] concatenates_S1600000_S100000_S1700000_d0 (ix1 (rowE e)) = a (ix1 e) :=
  concatenate_pair_apply_left 0 a b concatenates_S1600000_S100000_S1700000_d0 (ix1 (rowE e)) rfl (ix1 e)
    (fun b => match b with | ⟨0, _⟩ => rfl)

/-- The two-piece array read at a self row is the second piece at that node. -/
theorem concat_self (a : S1600000.Idx → α) (b : S100000.Idx → α) (i : Fin 100000) :
    concatenate S1700000 0 [⟨S1600000, a⟩, ⟨S100000, b⟩] concatenates_S1600000_S100000_S1700000_d0 (ix1 (rowS i)) = b (ix1 i) :=
  concatenate_pair_apply_right 0 a b concatenates_S1600000_S100000_S1700000_d0 (ix1 (rowS i)) rfl rfl (ix1 i)
    (fun b hb => match b, hb with | ⟨0, _⟩, hb => absurd rfl hb)
    (show i.val + 1600000 = 1600000 + i.val by omega)

/-- A vector over the rows laid out as one column reads the vector at the row. -/
theorem bcast_col_apply (y : S1700000.Idx → α) (j : Fin 1700000) (z : Fin 1) :
    broadcastInDim S1700000x1 ![0] bcast_S1700000_S1700000x1_0 y (ix2 j z) = y (ix1 j) :=
  broadcastInDim_apply _ bcast_S1700000_S1700000x1_0 y (ix2 j z) (ix1 j) (fun a => match a with
    | ⟨0, _⟩ => by show j.val = if (1700000 : Nat) = 1 then 0 else j.val; rw [if_neg (by decide)])

/-- One column repeated along 64 columns reads the column at the row. -/
theorem bcast_row_apply (y : S1700000x1.Idx → α) (j : Fin 1700000) (c : Fin 64) :
    broadcastInDim S1700000x64 ![0, 1] bcast_S1700000x1_S1700000x64_0_1 y (ix2 j c) = y (ix2 j (0 : Fin 1)) :=
  broadcastInDim_apply _ bcast_S1700000x1_S1700000x64_0_1 y (ix2 j c) (ix2 j (0 : Fin 1)) (fun a => match a with
    | ⟨0, _⟩ => by show j.val = if (1700000 : Nat) = 1 then 0 else j.val; rw [if_neg (by decide)]
    | ⟨1, _⟩ => by show 0 = if (1 : Nat) = 1 then 0 else c.val; rw [if_pos rfl])

end Layout

/-- The zero array the sums start from reads 0 everywhere. -/
theorem zeros_apply (i : S100000x64.Idx) :
    broadcastInDim S100000x64 ![] bcast_S_S100000x64 (constant (F := Ideal) S_ .f32 0x00000000#32) i = 0 := by
  rw [broadcastInDim_scalar_apply, constant_apply, Ideal.ofBits_zero_f32]

/-! ## The two collective operations at an index -/

/-- The sum of update rows into their destination rows, read at node n and channel c. -/
theorem scatterAdd_rows_apply (x : FVec Ideal S100000x64 .f32) (idx : IVec S1700000x1 32) (upd : FVec Ideal S1700000x64 .f32)
    (n : Fin 100000) (c : Fin 64) :
    Host.scatterAdd scatter_S100000x64_S1700000x1_S1700000x64_1_0_0_1 x idx upd (ix2 n c)
      = x (ix2 n c) + ∑ j : Fin 1700000, if (idx (ix2 j (0 : Fin 1))).toInt = (n.val : Int) then upd (ix2 j c) else 0 :=
  Cert.RowScatter.hostScatterAdd_rowScatter_apply (N := 100000) (E := 1700000) (C := 64)
    scatter_S100000x64_S1700000x1_S1700000x64_1_0_0_1_wf x idx upd n c

/-- The rows taken by number, read at row j and channel c. -/
theorem gather_rows_at (x : FVec Ideal S100000x64 .bf16) (idx : IVec S1700000x1 32) (j : Fin 1700000) (c : Fin 64) :
    Host.gather gather_S100000x64_S1700000x1_S1700000x64_1_0_n_n_0_1_164 x idx (ix2 j c)
      = x (ix2 (clampNode (idx (ix2 j (0 : Fin 1)))) c) :=
  Cert.RowGather.gather_rows_apply (N := 100000) (E := 1700000) (C := 64)
    gather_S100000x64_S1700000x1_S1700000x64_1_0_n_n_0_1_164_wf (by omega) x idx j c

/-! ## The aggregation's destination numbers and update rows -/

/-- The destination node of every update row, as one column. -/
def aggIdx (dst : IVec S1600000 32) : IVec S1700000x1 32 :=
  broadcastInDim S1700000x1 ![0] bcast_S1700000_S1700000x1_0
    (concatenate S1700000 0 [⟨S1600000, dst⟩, ⟨S100000, selfIdx⟩] concatenates_S1600000_S100000_S1700000_d0)

/-- The update rows: the source node's row times the row's factor. -/
def aggUpd (hb : FVec Ideal S100000x64 .bf16) (src : IVec S1600000 32) (nrm : FVec Ideal S1600000 .f32)
    (inv : FVec Ideal S100000 .f32) : FVec Ideal S1700000x64 .f32 :=
  mulf
    (extf .f32 (Host.gather gather_S100000x64_S1700000x1_S1700000x64_1_0_n_n_0_1_164 hb
      (broadcastInDim S1700000x1 ![0] bcast_S1700000_S1700000x1_0
        (wrapT (concatenate S1700000 0 [⟨S1600000, src⟩, ⟨S100000, selfIdx⟩] concatenates_S1600000_S100000_S1700000_d0))))
      bitsLt_bf16_f32)
    (broadcastInDim S1700000x64 ![0, 1] bcast_S1700000x1_S1700000x64_0_1
      (broadcastInDim S1700000x1 ![0] bcast_S1700000_S1700000x1_0
        (concatenate S1700000 0 [⟨S1600000, nrm⟩, ⟨S100000, inv⟩] concatenates_S1600000_S100000_S1700000_d0)))

/-- The aggregation is the sum of those update rows into those destination rows of the zero array. -/
theorem aggOf_eq (hb : FVec Ideal S100000x64 .bf16) (src dst : IVec S1600000 32) (nrm : FVec Ideal S1600000 .f32)
    (inv : FVec Ideal S100000 .f32) :
    aggOf hb src dst nrm inv
      = Host.scatterAdd scatter_S100000x64_S1700000x1_S1700000x64_1_0_0_1
          (broadcastInDim S100000x64 ![] bcast_S_S100000x64 (constant (F := Ideal) S_ .f32 0x00000000#32))
          (aggIdx dst) (aggUpd hb src nrm inv) := rfl

/-- An edge row goes to the edge's destination node. -/
theorem aggIdx_edge (dst : IVec S1600000 32) (e : Fin 1600000) :
    aggIdx dst (ix2 (rowE e) (0 : Fin 1)) = dst (ix1 e) := by
  unfold aggIdx
  rw [bcast_col_apply, concat_edge]

/-- A self row goes to its own node. -/
theorem aggIdx_self (dst : IVec S1600000 32) (i : Fin 100000) :
    aggIdx dst (ix2 (rowS i) (0 : Fin 1)) = BitVec.ofNat 32 i.val := by
  unfold aggIdx
  rw [bcast_col_apply, concat_self, selfIdx_apply]

/-- An edge row carries the source node's row times the edge's normalisation. -/
theorem aggUpd_edge (hb : FVec Ideal S100000x64 .bf16) (src : IVec S1600000 32) (nrm : FVec Ideal S1600000 .f32)
    (inv : FVec Ideal S100000 .f32) (e : Fin 1600000) (c : Fin 64) :
    aggUpd hb src nrm inv (ix2 (rowE e) c) = hb (ix2 (clampNode (wrapE src (ix1 e))) c) * nrm (ix1 e) := by
  unfold aggUpd
  rw [mulf_apply, extf_apply, gather_rows_at, bcast_col_apply, wrapT_apply, concat_edge, bcast_row_apply, bcast_col_apply,
    concat_edge, wrapE_apply]

/-- A self row carries the node's own row times the node's factor. -/
theorem aggUpd_self (hb : FVec Ideal S100000x64 .bf16) (src : IVec S1600000 32) (nrm : FVec Ideal S1600000 .f32)
    (inv : FVec Ideal S100000 .f32) (i : Fin 100000) (c : Fin 64) :
    aggUpd hb src nrm inv (ix2 (rowS i) c) = hb (ix2 i c) * inv (ix1 i) := by
  unfold aggUpd
  rw [mulf_apply, extf_apply, gather_rows_at, bcast_col_apply, wrapT_apply, concat_self, bcast_row_apply, bcast_col_apply,
    concat_self, selfIdx_apply, wrapWord_small i.val i.isLt, clampNode_small i.val i.isLt]

/-! ## The aggregation at an index -/

/-- The aggregation at node n and channel c: over the edges into n, the (clamped, counted-from-the-end) source
    node's row times the edge's normalisation, plus node n's own row times its factor. -/
theorem aggOf_apply (hb : FVec Ideal S100000x64 .bf16) (src dst : IVec S1600000 32) (nrm : FVec Ideal S1600000 .f32)
    (inv : FVec Ideal S100000 .f32) (n : Fin 100000) (c : Fin 64) :
    aggOf hb src dst nrm inv (ix2 n c)
      = 0 + ((∑ e : Fin 1600000, if (dst (ix1 e)).toInt = (n.val : Int)
                then hb (ix2 (clampNode (wrapE src (ix1 e))) c) * nrm (ix1 e) else 0)
             + hb (ix2 n c) * inv (ix1 n)) := by
  rw [aggOf_eq, scatterAdd_rows_apply, zeros_apply, sum_rows]
  refine congrArg (fun t => (0 : EReal) + t) (congrArg₂ (fun s t => s + t) ?_ ?_)
  · refine Finset.sum_congr rfl fun e _ => ?_
    rw [aggIdx_edge, aggUpd_edge]
  · have hpt : ∀ i : Fin 100000,
        (if (aggIdx dst (ix2 (rowS i) (0 : Fin 1))).toInt = (n.val : Int) then aggUpd hb src nrm inv (ix2 (rowS i) c) else 0)
          = if i = n then hb (ix2 i c) * inv (ix1 i) else 0 := fun i => by
      rw [aggIdx_self, aggUpd_self, toInt_ofNat_small i.val i.isLt]
      by_cases h : i = n
      · subst h; rw [if_pos rfl, if_pos rfl]
      · rw [if_neg h, if_neg (fun h' => h (Fin.ext (by exact_mod_cast h')))]
    rw [Finset.sum_congr rfl (fun i _ => hpt i), Finset.sum_ite_eq' Finset.univ n, if_pos (Finset.mem_univ n)]

end Cert.KernelIdeal.HostValue

end
-- ==== Proof.AffineLaw.lean ====
import Mathlib.Data.EReal.Inv
import Idealize.ShloMosaic.PureOps.Ideal

noncomputable section

namespace Cert.GcnLaws

open Idealize.ShloMosaic

/-- For an ARBITRARY extended real a (possibly ±∞) and REAL b μ r γ β: folding bias and batch-norm
into one scale and one shift is exact. With c = γ·r real, both sides are a·c plus a real when a is
real; when a is infinite both sides are the infinity of the sign of ±c, or the same real when c = 0. -/
theorem affine_fold (a : EReal) (b μ r γ β : ℝ) :
    (((a + (b : EReal)) - (μ : EReal)) * (r : EReal)) * (γ : EReal) + (β : EReal)
      = a * ((γ : EReal) * (r : EReal)) + ((β : EReal) + ((b : EReal) - (μ : EReal)) * ((γ : EReal) * (r : EReal))) := by
  have hc : (γ : EReal) * (r : EReal) = ((γ * r : ℝ) : EReal) := (EReal.coe_mul γ r).symm
  rw [mul_assoc, mul_comm (r : EReal) (γ : EReal), hc]
  generalize γ * r = c
  rw [← EReal.coe_sub b μ, ← EReal.coe_mul (b - μ) c, ← EReal.coe_add β ((b - μ) * c)]
  induction a using EReal.rec with
  | bot =>
    rw [EReal.bot_add, EReal.bot_sub]
    rcases lt_trichotomy c 0 with h | h | h
    · rw [EReal.bot_mul_coe_of_neg h, EReal.top_add_coe, EReal.top_add_coe]
    · subst h
      rw [EReal.coe_zero, mul_zero, zero_add, zero_add, mul_zero, add_zero]
    · rw [EReal.bot_mul_coe_of_pos h, EReal.bot_add, EReal.bot_add]
  | coe x =>
    rw [← EReal.coe_add, ← EReal.coe_sub, ← EReal.coe_mul, ← EReal.coe_add, ← EReal.coe_mul,
      ← EReal.coe_add]
    congr 1
    ring
  | top =>
    rw [EReal.top_add_coe, EReal.top_sub_coe]
    rcases lt_trichotomy c 0 with h | h | h
    · rw [EReal.top_mul_coe_of_neg h, EReal.bot_add, EReal.bot_add]
    · subst h
      rw [EReal.coe_zero, mul_zero, zero_add, zero_add, mul_zero, add_zero]
    · rw [EReal.top_mul_coe_of_pos h, EReal.top_add_coe, EReal.top_add_coe]

/-- The f32 word 0x3727C5AC (sign 0, exponent field 110, fraction field 0x27C5AC) denotes a
positive real. -/
theorem eps_pos_real : ∃ e : ℝ, 0 < e ∧ Ideal.ofBits .f32 0x3727C5AC#32 = (e : EReal) := by
  refine ⟨_, ?_, by simp [Ideal.ofBits, Ideal.ieee, -EReal.coe_mul]; rfl⟩
  positivity

/-- The reciprocal square root of v + ε is a real when v is a nonnegative real; ε is the f32 word
0x3727C5AC (about 1e-5, positive): v + ε is a positive real, so neither corner of the reciprocal
square root is met. -/
theorem rsqrt_var_eps_real (v : ℝ) (hv : 0 ≤ v) :
    ∃ r : ℝ, Ideal.rsqrt ((v : EReal) + Ideal.ofBits .f32 0x3727C5AC#32) = (r : EReal) := by
  obtain ⟨e, he, hE⟩ := eps_pos_real
  have hpos : 0 < v + e := by linarith
  refine ⟨(Real.sqrt (v + e))⁻¹, ?_⟩
  rw [hE, ← EReal.coe_add, Ideal.rsqrt_coe, if_neg (not_lt.mpr hpos.le), if_neg hpos.ne']

end Cert.GcnLaws

end
-- ==== Proof.PreDecode.lean ====
import proofs.«107749_j70531952935093_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.GcnLaws

open Idealize.ShloMosaic Cert.Pre_finite_inputs

/-- The rank-0 shape has exactly one index. -/
instance subsingleton_scalar_idx : Subsingleton S_.Idx := ⟨fun a b => funext fun d => d.elim0⟩

/-- The f32 word 0x7F800000 (sign 0, exponent field all ones, fraction 0) denotes +∞, by computation. -/
theorem ofBits_inf : Ideal.ofBits .f32 0x7F800000#32 = (⊤ : EReal) := rfl

/-- An extended real whose absolute value max x (-x) is strictly below +∞ is a real: at x = ⊥ and at
x = ⊤ the absolute value is ⊤, which is not below itself. -/
theorem real_of_abs_lt_top (x : EReal) (h : Ideal.cmp .olt (max x (-x)) ⊤ = 1#1) : ∃ r : ℝ, x = (r : EReal) := by
  induction x using EReal.rec with
  | bot => exfalso; revert h; simp [Ideal.cmp]
  | coe r => exact ⟨r, rfl⟩
  | top => exfalso; revert h; simp [Ideal.cmp]

/-- An extended real that compares ≥ 0 is nonnegative. -/
theorem nonneg_of_oge_zero (x : EReal) (h : Ideal.cmp .oge x 0 = 1#1) : 0 ≤ x := by
  unfold Ideal.cmp at h
  by_contra hx
  simp [hx] at h

/-- A rank-0 constant broadcast to any shape reads the extended real its word denotes at every index. -/
theorem bcast_const_apply {T : Shape} (hb : S_.BroadcastsInDim T (![] : Fin 0 → Fin T.rank)) (c : BitVec 32) (i : T.Idx) :
    broadcastInDim T ![] hb (constant (F := Ideal) S_ .f32 c) i = Ideal.ofBits .f32 c := rfl

/-- One entry of an array whose printed test "all |v| < +∞" came out 1 is a real. -/
theorem entry_real [Facts] {T : Shape} (hb : S_.BroadcastsInDim T (![] : Fin 0 → Fin T.rank)) {axes : List (Fin T.rank)}
    (hr : T.ReducesTo axes S_) (v : FVec Ideal T .f32)
    (h : Host.reduce IntOp.andi
          (cmpf .olt (Host.absf v) (broadcastInDim T ![] hb (constant (F := Ideal) S_ .f32 0x7F800000#32)))
          (constantI S_ 1 1#1) hr Facts.h_S_ ValueIdx.ix0 = 1#1) (i : T.Idx) :
    ∃ r : ℝ, v i = (r : EReal) := by
  have e := Host.reduce_andi_all _ _ hr Facts.h_S_ ValueIdx.ix0 h i
  rw [ValueIdx.cmpf_apply, bcast_const_apply, ofBits_inf] at e
  exact real_of_abs_lt_top (v i) e

open Idealize.ShloMosaic Cert.Pre_finite_inputs in
/-- The printed precondition decoded: the bias, the three batch-norm vectors and the running mean are
real at every entry, and the running variance is a nonnegative real at every entry. -/
theorem pre_decode [Cert.Pre_finite_inputs.Facts]
    (x : FVec Ideal S100000x128 .f32) (ei : IVec S2x1600000 32) (w : FVec Ideal S128x64 .f32)
    (b g be mu var : FVec Ideal S64 .f32)
    (h : Cert.Pre_finite_inputs.fn (F := Ideal) x ei w b g be mu var = fun _ => 1#1) :
    (∀ i, ∃ r : ℝ, b i = (r : EReal)) ∧ (∀ i, ∃ r : ℝ, g i = (r : EReal)) ∧ (∀ i, ∃ r : ℝ, be i = (r : EReal))
      ∧ (∀ i, ∃ r : ℝ, mu i = (r : EReal)) ∧ (∀ i, ∃ r : ℝ, var i = (r : EReal) ∧ 0 ≤ r) := by
  have e := congrFun h ValueIdx.ix0
  dsimp only [fn, fn_part1, fn_part2, andi] at e
  simp only [IntOp.andi_eq_one] at e
  obtain ⟨⟨⟨⟨⟨⟨⟨-, -⟩, hb⟩, hg⟩, hbe⟩, hmu⟩, hvar⟩, hge⟩ := e
  refine ⟨entry_real _ _ b hb, entry_real _ _ g hg, entry_real _ _ be hbe, entry_real _ _ mu hmu, fun i => ?_⟩
  obtain ⟨r, hr⟩ := entry_real _ _ var hvar i
  refine ⟨r, hr, ?_⟩
  have e0 := Host.reduce_andi_all _ _ Facts.reducesTo_S64_S_d0 Facts.h_S_ ValueIdx.ix0 hge i
  rw [ValueIdx.cmpf_apply, bcast_const_apply, Ideal.ofBits_zero_f32, hr] at e0
  exact EReal.coe_nonneg.mp (nonneg_of_oge_zero _ e0)

end Cert.GcnLaws

end
-- ==== Proof.Bridge.lean ====
import proofs.«107749_j70531952935093_2_alg».proof.Proof.RefResult
import proofs.«107749_j70531952935093_2_alg».proof.Proof.KernelAggregate
import proofs.«107749_j70531952935093_2_alg».proof.Proof.MatmulBlocks
import proofs.«107749_j70531952935093_2_alg».proof.Proof.AffineLaw
import proofs.«107749_j70531952935093_2_alg».proof.Proof.PreDecode
import proofs.«107749_j70531952935093_2_alg».proof.Proof.HostStages

set_option maxRecDepth 16384

noncomputable section

open scoped BigOperators

namespace Cert.GcnBridge

open Idealize.ShloMosaic Idealize.ShloMosaic.ValueIdx
open Cert.ReferenceIdeal.Read Cert.ReferenceIdeal.RefValue
open Cert.KernelIdeal.HostValue
open Cert.KernelIdeal.RegionValue (hmat)

variable (x0 : (⟨Cert.ReferenceIdeal.S100000x128, .f32⟩ : BufTy).Contents (Elt Ideal))
  (x1 : (⟨Cert.ReferenceIdeal.S2x1600000, .i32⟩ : BufTy).Contents (Elt Ideal))
  (x2 : (⟨Cert.ReferenceIdeal.S128x64, .f32⟩ : BufTy).Contents (Elt Ideal))

/-! ## The two programs' shared stages are the same functions of the arguments -/

set_option maxHeartbeats 400000 in
/-- The sources of the edges. -/
theorem src_eq : srcOf x1 = val_main_v1 (F := Ideal) x1 := rfl

set_option maxHeartbeats 400000 in
/-- The destinations of the edges. -/
theorem dst_eq : dstOf x1 = val_main_v3 (F := Ideal) x1 := rfl

set_option maxHeartbeats 400000 in
/-- The sources counted from the end when negative, as the messages' gather reads them. -/
theorem wrap_src_eq : wrapE (val_main_v1 (F := Ideal) x1) = val_main_v31 (F := Ideal) x1 := rfl

set_option maxHeartbeats 400000 in
/-- The same, as the normalisation's first gather reads them. -/
theorem wrap_src_eq' : wrapE (val_main_v1 (F := Ideal) x1) = val_main_v15 (F := Ideal) x1 := rfl

set_option maxHeartbeats 400000 in
/-- The destinations counted from the end when negative. -/
theorem wrap_dst_eq : wrapE (val_main_v3 (F := Ideal) x1) = val_main_v22 (F := Ideal) x1 := rfl

set_option maxHeartbeats 400000 in
/-- The degree count's dimension numbers. -/
theorem scatter1_eq : Cert.KernelIdeal.scatter_S100000_S1600000x1_S1600000_n_0_0_1
    = Cert.ReferenceIdeal.scatter_S100000_S1600000x1_S1600000_n_0_0_1 := rfl

set_option maxHeartbeats 400000 in
/-- The per-node gather's dimension numbers. -/
theorem gather1_eq : Cert.KernelIdeal.gather_S100000_S1600000x1_S1600000_n_0_n_n_0_1_1
    = Cert.ReferenceIdeal.gather_S100000_S1600000x1_S1600000_n_0_n_n_0_1_1 := rfl

set_option maxHeartbeats 400000 in
/-- The in-degree plus one. -/
theorem deg_eq : degOf (val_main_v3 (F := Ideal) x1) = val_main_v9 (F := Ideal) x1 := by
  unfold degOf val_main_v9 val_main_v7
  rw [scatter1_eq]
  rfl

set_option maxHeartbeats 400000 in
/-- The edges' normalisation. -/
theorem norm_eq : normOf (val_main_v1 (F := Ideal) x1) (val_main_v3 (F := Ideal) x1) = val_main_v25 (F := Ideal) x1 := by
  unfold normOf val_main_v25 val_main_v17 val_main_v24 val_main_v10 val_main_v16 val_main_v23
  rw [deg_eq, wrap_src_eq', wrap_dst_eq, gather1_eq]

set_option maxHeartbeats 400000 in
/-- The self loops' factor. -/
theorem inv_eq : invOf (val_main_v3 (F := Ideal) x1) = val_main_v41 (F := Ideal) x1 := by
  unfold invOf val_main_v41
  rw [deg_eq]
  rfl

/-- The matrix product: both sides are the sum over the 128 shared coordinates. -/
theorem hmat_eq : hmat x0 x2 = val_main_v26 (F := Ideal) x0 x2 := by
  funext i
  rw [val_main_v26_apply]
  unfold hmat
  refine Finset.sum_congr rfl fun k _ => ?_
  have hl : lidx_main_v26 i k = ix2 (⟨(i 0).val, (i 0).isLt⟩ : Fin 100000) k :=
    funext fun a => match a with | ⟨0, _⟩ => rfl | ⟨1, _⟩ => rfl
  have hr : ridx_main_v26 i k = ix2 k (⟨(i 1).val, (i 1).isLt⟩ : Fin 64) :=
    funext fun a => match a with | ⟨0, _⟩ => rfl | ⟨1, _⟩ => rfl
  rw [hl, hr]

/-! ## The aggregates agree -/

/-- The kernel's aggregation over the reference's stages is the reference's aggregate, entry by entry: the same
    zero, the same sum over the edges, the same self-loop term. -/
theorem agg_eq (n : Fin 100000) (c : Fin 64) :
    aggOf (val_main_v26 (F := Ideal) x0 x2) (val_main_v1 (F := Ideal) x1) (val_main_v3 (F := Ideal) x1)
        (val_main_v25 (F := Ideal) x1) (val_main_v41 (F := Ideal) x1) (ix2 n c)
      = val_main_v45 (F := Ideal) x0 x1 x2 (ix2 n c) := by
  rw [aggOf_apply, ref_agg_apply, ← add_assoc, wrap_src_eq]
  rfl

/-- The same with the kernel's own names for the stages. -/
theorem kernel_agg_eq (n : Fin 100000) (c : Fin 64) :
    aggOf (hmat x0 x2) (srcOf x1) (dstOf x1) (normOf (srcOf x1) (dstOf x1)) (invOf (dstOf x1)) (ix2 n c)
      = val_main_v45 (F := Ideal) x0 x1 x2 (ix2 n c) := by
  rw [hmat_eq, src_eq, dst_eq, norm_eq, inv_eq, agg_eq]

/-! ## The folded scale and shift at a channel -/

/-- The folded scale at a channel. -/
theorem scale_apply (g var : FVec Ideal Cert.KernelIdeal.S64 .f32) (i : Cert.KernelIdeal.S64.Idx) :
    scaleOf g var i = g i * Ideal.rsqrt (var i + Ideal.ofBits .f32 0x3727C5AC#32) := rfl

/-- The folded shift at a channel. -/
theorem shift_apply (b g be mu var : FVec Ideal Cert.KernelIdeal.S64 .f32) (i : Cert.KernelIdeal.S64.Idx) :
    shiftOf b g be mu var i = be i + (b i - mu i) * scaleOf g var i := rfl

/-! ## The bridge -/

/-- Under the precondition (finite inputs, nonnegative running variance) the kernel's closed form — the aggregate
    times the folded scale plus the folded shift, rectified — is the reference's result at every node and channel. -/
theorem bridge_apply [Cert.Pre_finite_inputs.Facts]
    (x3 x4 x5 x6 x7 : (⟨Cert.ReferenceIdeal.S64, .f32⟩ : BufTy).Contents (Elt Ideal))
    (hpre : Cert.Pre_finite_inputs.fn (F := Ideal) x0 x1 x2 x3 x4 x5 x6 x7 = fun _ => 1#1) (n : Fin 100000) (c : Fin 64) :
    max (aggOf (hmat x0 x2) (srcOf x1) (dstOf x1) (normOf (srcOf x1) (dstOf x1)) (invOf (dstOf x1)) (ix2 n c)
           * scaleOf x4 x7 (ix1 c) + shiftOf x3 x4 x5 x6 x7 (ix1 c)) 0
      = val_main_v64 (F := Ideal) x0 x1 x2 x3 x4 x5 x6 x7 (ix2 n c) := by
  obtain ⟨hb, hg, hbe, hmu, hvar⟩ := Cert.GcnLaws.pre_decode x0 x1 x2 x3 x4 x5 x6 x7 hpre
  obtain ⟨b, eb⟩ := hb (ix1 c)
  obtain ⟨γ, eg⟩ := hg (ix1 c)
  obtain ⟨β, ebe⟩ := hbe (ix1 c)
  obtain ⟨μ, emu⟩ := hmu (ix1 c)
  obtain ⟨v, ev, hv⟩ := hvar (ix1 c)
  obtain ⟨r, er⟩ := Cert.GcnLaws.rsqrt_var_eps_real v hv
  rw [ref_result_apply, kernel_agg_eq, shift_apply, scale_apply, eb, eg, ebe, emu, ev, er]
  exact congrArg (fun t => max t (0 : EReal)) (Cert.GcnLaws.affine_fold _ b μ r γ β).symm

end Cert.GcnBridge

end
-- ==== Proof.Claims.lean ====
/-
  The claims. The idealized kernel ends with its result array at `kernelOut` of the argument arrays (the kernel's run
  with the result named, read back through the boundary contents); the idealized reference ends at its composed term.
  Read at node `n` and channel `c` both are `max(… , 0)` of an affine function of ONE aggregate — the messages of the
  edges into `n` plus the self-loop term, the kernel's folded into one sum over the edges followed by the self edges —
  and the kernel's folded scale and shift are the reference's bias, mean, reciprocal deviation, gain and offset applied
  in turn, exactly, because those per-channel numbers are finite and the variance plus ε is positive (the
  precondition): the aggregate itself may be any extended real.
-/
import proofs.«107749_j70531952935093_2_alg».proof.Defs
import proofs.«107749_j70531952935093_2_alg».proof.Proof.Gen.Kernel.Frame
import proofs.«107749_j70531952935093_2_alg».proof.Proof.Gen.KernelIdeal.Frame
import proofs.«107749_j70531952935093_2_alg».proof.Proof.Gen.ReferenceIdeal.Run
import proofs.«107749_j70531952935093_2_alg».proof.Proof.Gen.ReferenceIdeal.Read
import proofs.«107749_j70531952935093_2_alg».proof.Proof.Gen.Pre_finite_inputs
import proofs.«107749_j70531952935093_2_alg».proof.Proof.KernelRun
import proofs.«107749_j70531952935093_2_alg».proof.Proof.KernelResult
import proofs.«107749_j70531952935093_2_alg».proof.Proof.EpilogueRead
import proofs.«107749_j70531952935093_2_alg».proof.Proof.Bridge

set_option maxRecDepth 16384

noncomputable section

namespace Cert.Proof.GcnClaims

open Idealize.ShloMosaic Idealize.ShloMosaic.TcCoe Idealize.SL.Sem Idealize.ShloMosaic.ValueIdx
open Cert.KernelIdeal.HostValue

/-- The reference's composed term is the kernel's result function, under the precondition. -/
theorem result_eq [Cert.Pre_finite_inputs.Facts]
    (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x64, .f32⟩ : BufTy).Contents (Elt Ideal))
    (x3 x4 x5 x6 x7 : (⟨Cert.ReferenceIdeal.S64, .f32⟩ : BufTy).Contents (Elt Ideal))
    (hpre : Cert.Pre_finite_inputs.fn (F := Ideal) x0 x1 x2 x3 x4 x5 x6 x7 = fun _ => 1#1) :
    Cert.ReferenceIdeal.Read.val_main_v64 (F := Ideal) x0 x1 x2 x3 x4 x5 x6 x7 = kernelOut x0 x1 x2 x3 x4 x5 x6 x7 := by
  funext i
  obtain ⟨n, c, rfl⟩ : ∃ (n : Fin 100000) (c : Fin 64), i = ix2 n c := ⟨i 0, i 1, eq_ix2 i⟩
  rw [← Cert.GcnBridge.bridge_apply x0 x1 x2 x3 x4 x5 x6 x7 hpre n c]
  unfold kernelOut
  exact (epilogue_read _ _ _ n c).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

theorem algebraic : Cert.algebraic_KernelIdeal_ReferenceIdeal := by
  intro m ρ m' ρ' hpre hagree
  refine ⟨fun c => kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono (fun _ h c => ⟨(h c).1.trans (kernel_result m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v64_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact result_eq _ _ _ _ _ _ _ _ (hpre c)

end Cert.Proof.GcnClaims

end
-- ==== Proof.lean ====
/-
  A graph-convolution block on 100000 nodes and 1600000 edges: `h = x · W`; every node sums, over the edges into it, the
  source node's row of `h` times `rsqrt(deg src) · rsqrt(deg dst)`, plus its own row over its degree (the in-degree
  plus one); then bias, batch normalisation with running statistics, and `max(·, 0)`.

  The kernel computes `h` in one tiled matrix product, appends one self edge per node to the edge list so that ONE
  scatter-add gives the whole aggregate, folds bias and normalisation into a per-channel scale `γ · rsqrt(var + ε)` and
  shift `β + (b − μ) · scale`, and applies `max(agg · scale + shift, 0)` on a view with two nodes per 128-wide row. The
  reference sums the edges and adds the self term separately, then applies `((agg + b − μ) · rsqrt(var + ε)) · γ + β`.

  On the extended reals the two aggregates are one sum regrouped (no finiteness is needed: addition is associative and
  commutative there), the self edges' clamped, non-negative node numbers read back the nodes themselves, and the folded
  affine map equals the unfolded one for ANY extended-real aggregate once `b, μ, γ, β` are finite and `var + ε > 0`, so
  that `rsqrt(var + ε)` is a real: multiplication by a real distributes over the sum of an extended real and a real.
  At `var = −ε` the reciprocal square root is `+∞` and the two sides differ, which is why the precondition asks
  `var ≥ 0`, the domain of the reference's own `rsqrt(var + ε)`.

  The modules: the kernel's run with its result named (KernelRun), the two regions' values (MatmulBlocks,
  EpilogueBlocks), the host stages between them and their reading through the boundary contents (HostStages,
  KernelHost, KernelResult, EpilogueRead), the aggregates at an index (KernelAggregate, RefAggregate over the general
  row gather and row scatter-add), the reference's result at an index (RefResult), the law and the decoded precondition
  (AffineLaw, PreDecode), their meeting (Bridge) and the five claims (Claims).
-/
import proofs.«107749_j70531952935093_2_alg».proof.Defs
import proofs.«107749_j70531952935093_2_alg».proof.Proof.Gen.Kernel
import proofs.«107749_j70531952935093_2_alg».proof.Proof.Gen.Kernel.Skeleton
import proofs.«107749_j70531952935093_2_alg».proof.Proof.Gen.Kernel.Launch
import proofs.«107749_j70531952935093_2_alg».proof.Proof.Gen.Kernel.Points
import proofs.«107749_j70531952935093_2_alg».proof.Proof.Gen.Kernel.Frame
import proofs.«107749_j70531952935093_2_alg».proof.Proof.Gen.KernelIdeal
import proofs.«107749_j70531952935093_2_alg».proof.Proof.Gen.KernelIdeal.Skeleton
import proofs.«107749_j70531952935093_2_alg».proof.Proof.Gen.KernelIdeal.Launch
import proofs.«107749_j70531952935093_2_alg».proof.Proof.Gen.KernelIdeal.Points
import proofs.«107749_j70531952935093_2_alg».proof.Proof.Gen.KernelIdeal.Frame
import proofs.«107749_j70531952935093_2_alg».proof.Proof.Gen.ReferenceIdeal
import proofs.«107749_j70531952935093_2_alg».proof.Proof.Gen.ReferenceIdeal.Run
import proofs.«107749_j70531952935093_2_alg».proof.Proof.Gen.ReferenceIdeal.Read
import proofs.«107749_j70531952935093_2_alg».proof.Proof.Gen.Pre_finite_inputs
import proofs.«107749_j70531952935093_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  GcnClaims.frame_k, GcnClaims.frame_ki, GcnClaims.frame_ri, GcnClaims.preserves, GcnClaims.algebraic⟩

end Cert.Proof

end
